-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128x64 : Shape := ⟨3, ![2048, 128, 64]⟩
abbrev S_ : Shape := ⟨0, ![]⟩

class Facts : Prop where
  bcast_S_S2048x128x64 : S_.BroadcastsInDim S2048x128x64 (![] : Fin 0 → Fin S2048x128x64.rank)
  reducesTo_S2048x128x64_S_d0_1_2 : S2048x128x64.ReducesTo [0, 1, 2] S_
  h_S_ : 0 < S_.numel

variable [Facts]

def fn {F : FTy → Type} [FloatOps F] (main_arg0 : FVec F S2048x128x64 .f32) (main_arg1 : FVec F S2048x128x64 .f32) : IVec S_ 1 :=
  let main_v0 : FVec F S2048x128x64 .f32 := Host.absf main_arg0
  let main_cst : FVec F S_ .f32 := constant S_ .f32 0x7F800000#32
  let main_v1 : FVec F S2048x128x64 .f32 := broadcastInDim S2048x128x64 ![] bcast_S_S2048x128x64 main_cst
  let main_v2 : IVec S2048x128x64 1 := cmpf .olt main_v0 main_v1
  let main_c : IVec S_ 1 := constantI S_ 1 1#1
  let main_v3 : IVec S_ 1 := (fun x v => Host.reduce IntOp.andi x v reducesTo_S2048x128x64_S_d0_1_2 h_S_) main_v2 main_c
  let main_v4 : FVec F S2048x128x64 .f32 := Host.absf main_arg1
  let main_cst_0 : FVec F S_ .f32 := constant S_ .f32 0x7F800000#32
  let main_v5 : FVec F S2048x128x64 .f32 := broadcastInDim S2048x128x64 ![] bcast_S_S2048x128x64 main_cst_0
  let main_v6 : IVec S2048x128x64 1 := cmpf .olt main_v4 main_v5
  let main_c_1 : IVec S_ 1 := constantI S_ 1 1#1
  let main_v7 : IVec S_ 1 := (fun x v => Host.reduce IntOp.andi x v reducesTo_S2048x128x64_S_d0_1_2 h_S_) main_v6 main_c_1
  let main_v8 : IVec S_ 1 := andi main_v3 main_v7
  main_v8
-- ==== Kernel.lean ====
abbrev S2048x128x64 : Shape := ⟨3, ![2048, 128, 64]⟩
abbrev S2048x8x64 : Shape := ⟨3, ![2048, 8, 64]⟩
abbrev S2048x8x64x64 : Shape := ⟨4, ![2048, 8, 64, 64]⟩
abbrev S64x8x64 : Shape := ⟨3, ![64, 8, 64]⟩
abbrev S64x8x64x64 : Shape := ⟨4, ![64, 8, 64, 64]⟩
abbrev S64x64x64 : Shape := ⟨3, ![64, 64, 64]⟩
abbrev S64x1x64 : Shape := ⟨3, ![64, 1, 64]⟩
abbrev S64x64 : Shape := ⟨2, ![64, 64]⟩
abbrev S64x64x1 : Shape := ⟨3, ![64, 64, 1]⟩
abbrev S64x1x64x64 : Shape := ⟨4, ![64, 1, 64, 64]⟩
abbrev S2048x24x64 : Shape := ⟨3, ![2048, 24, 64]⟩
abbrev S64x24x64 : Shape := ⟨3, ![64, 24, 64]⟩
abbrev S2048x40x64 : Shape := ⟨3, ![2048, 40, 64]⟩
abbrev S64x40x64 : Shape := ⟨3, ![64, 40, 64]⟩
abbrev S2048x56x64 : Shape := ⟨3, ![2048, 56, 64]⟩
abbrev S64x56x64 : Shape := ⟨3, ![64, 56, 64]⟩
abbrev S2048x32x64x64 : Shape := ⟨4, ![2048, 32, 64, 64]⟩

abbrev nBuf : Space → Nat
  | .hbm => 15
  | .vmem => 24
  | .smem => 0
  | _ => 0

abbrev bufTy : (tb : Table) → Fin (tcTables nBuf tb) → BufTy
  | .hbm, ⟨0, _⟩ => ⟨S2048x128x64, .f32⟩
  | .hbm, ⟨1, _⟩ => ⟨S2048x128x64, .f32⟩
  | .hbm, ⟨2, _⟩ => ⟨S2048x8x64, .f32⟩
  | .hbm, ⟨3, _⟩ => ⟨S2048x8x64, .f32⟩
  | .hbm, ⟨4, _⟩ => ⟨S2048x8x64x64, .f32⟩
  | .hbm, ⟨5, _⟩ => ⟨S2048x24x64, .f32⟩
  | .hbm, ⟨6, _⟩ => ⟨S2048x24x64, .f32⟩
  | .hbm, ⟨7, _⟩ => ⟨S2048x8x64x64, .f32⟩
  | .hbm, ⟨8, _⟩ => ⟨S2048x40x64, .f32⟩
  | .hbm, ⟨9, _⟩ => ⟨S2048x40x64, .f32⟩
  | .hbm, ⟨10, _⟩ => ⟨S2048x8x64x64, .f32⟩
  | .hbm, ⟨11, _⟩ => ⟨S2048x56x64, .f32⟩
  | .hbm, ⟨12, _⟩ => ⟨S2048x56x64, .f32⟩
  | .hbm, ⟨13, _⟩ => ⟨S2048x8x64x64, .f32⟩
  | .hbm, ⟨14, _⟩ => ⟨S2048x32x64x64, .f32⟩
  | .local _ .vmem, ⟨0, _⟩ => ⟨S64x8x64, .f32⟩
  | .local _ .vmem, ⟨1, _⟩ => ⟨S64x8x64, .f32⟩
  | .local _ .vmem, ⟨2, _⟩ => ⟨S64x8x64, .f32⟩
  | .local _ .vmem, ⟨3, _⟩ => ⟨S64x8x64, .f32⟩
  | .local _ .vmem, ⟨4, _⟩ => ⟨S64x8x64x64, .f32⟩
  | .local _ .vmem, ⟨5, _⟩ => ⟨S64x8x64x64, .f32⟩
  | .local _ .vmem, ⟨6, _⟩ => ⟨S64x24x64, .f32⟩
  | .local _ .vmem, ⟨7, _⟩ => ⟨S64x24x64, .f32⟩
  | .local _ .vmem, ⟨8, _⟩ => ⟨S64x24x64, .f32⟩
  | .local _ .vmem, ⟨9, _⟩ => ⟨S64x24x64, .f32⟩
  | .local _ .vmem, ⟨10, _⟩ => ⟨S64x8x64x64, .f32⟩
  | .local _ .vmem, ⟨11, _⟩ => ⟨S64x8x64x64, .f32⟩
  | .local _ .vmem, ⟨12, _⟩ => ⟨S64x40x64, .f32⟩
  | .local _ .vmem, ⟨13, _⟩ => ⟨S64x40x64, .f32⟩
  | .local _ .vmem, ⟨14, _⟩ => ⟨S64x40x64, .f32⟩
  | .local _ .vmem, ⟨15, _⟩ => ⟨S64x40x64, .f32⟩
  | .local _ .vmem, ⟨16, _⟩ => ⟨S64x8x64x64, .f32⟩
  | .local _ .vmem, ⟨17, _⟩ => ⟨S64x8x64x64, .f32⟩
  | .local _ .vmem, ⟨18, _⟩ => ⟨S64x56x64, .f32⟩
  | .local _ .vmem, ⟨19, _⟩ => ⟨S64x56x64, .f32⟩
  | .local _ .vmem, ⟨20, _⟩ => ⟨S64x56x64, .f32⟩
  | .local _ .vmem, ⟨21, _⟩ => ⟨S64x56x64, .f32⟩
  | .local _ .vmem, ⟨22, _⟩ => ⟨S64x8x64x64, .f32⟩
  | .local _ .vmem, ⟨23, _⟩ => ⟨S64x8x64x64, .f32⟩
  | _, _ => ⟨S2048x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x8x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S64x24x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x24x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x8x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S64x40x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x40x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S64x8x64x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S64x56x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x56x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x8x64x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2048x128x64_S2048x8x64_0_0_0 : S2048x128x64.Slices ![0, 0, 0] S2048x8x64
  inb_S64x8x64_S64x1x64_0_0_0 : ∀ a, (![0, 0, 0] : Fin 3 → Nat) a + S64x1x64.size a ≤ S64x8x64.size a
  h_S64x1x64 : 0 < S64x1x64.numel
  shapeCasts_S64x1x64_S64x64 : S64x1x64.ShapeCasts S64x64
  shapeCasts_S64x64_S64x64x1 : S64x64.ShapeCasts S64x64x1
  shapeCasts_S64x64_S64x1x64 : S64x64.ShapeCasts S64x1x64
  broadcasts_S64x64x1_S64x64x64 : S64x64x1.Broadcasts S64x64x64
  broadcasts_S64x1x64_S64x64x64 : S64x1x64.Broadcasts S64x64x64
  inb_S64x8x64x64_S64x1x64x64_0_0_0_0 : ∀ a, (![0, 0, 0, 0] : Fin 4 → Nat) a + S64x1x64x64.size a ≤ S64x8x64x64.size a
  h_S64x1x64x64 : 0 < S64x1x64x64.numel
  shapeCasts_S64x1x64x64_S64x64x64 : S64x1x64x64.ShapeCasts S64x64x64
  shapeCasts_S64x64x64_S64x1x64x64 : S64x64x64.ShapeCasts S64x1x64x64
  inb_S64x8x64_S64x1x64_0_1_0 : ∀ a, (![0, 1, 0] : Fin 3 → Nat) a + S64x1x64.size a ≤ S64x8x64.size a
  inb_S64x8x64x64_S64x1x64x64_0_1_0_0 : ∀ a, (![0, 1, 0, 0] : Fin 4 → Nat) a + S64x1x64x64.size a ≤ S64x8x64x64.size a
  inb_S64x8x64_S64x1x64_0_2_0 : ∀ a, (![0, 2, 0] : Fin 3 → Nat) a + S64x1x64.size a ≤ S64x8x64.size a
  inb_S64x8x64x64_S64x1x64x64_0_2_0_0 : ∀ a, (![0, 2, 0, 0] : Fin 4 → Nat) a + S64x1x64x64.size a ≤ S64x8x64x64.size a
  inb_S64x8x64_S64x1x64_0_3_0 : ∀ a, (![0, 3, 0] : Fin 3 → Nat) a + S64x1x64.size a ≤ S64x8x64.size a
  inb_S64x8x64x64_S64x1x64x64_0_3_0_0 : ∀ a, (![0, 3, 0, 0] : Fin 4 → Nat) a + S64x1x64x64.size a ≤ S64x8x64x64.size a
  inb_S64x8x64_S64x1x64_0_4_0 : ∀ a, (![0, 4, 0] : Fin 3 → Nat) a + S64x1x64.size a ≤ S64x8x64.size a
  inb_S64x8x64x64_S64x1x64x64_0_4_0_0 : ∀ a, (![0, 4, 0, 0] : Fin 4 → Nat) a + S64x1x64x64.size a ≤ S64x8x64x64.size a
  inb_S64x8x64_S64x1x64_0_5_0 : ∀ a, (![0, 5, 0] : Fin 3 → Nat) a + S64x1x64.size a ≤ S64x8x64.size a
  inb_S64x8x64x64_S64x1x64x64_0_5_0_0 : ∀ a, (![0, 5, 0, 0] : Fin 4 → Nat) a + S64x1x64x64.size a ≤ S64x8x64x64.size a
  inb_S64x8x64_S64x1x64_0_6_0 : ∀ a, (![0, 6, 0] : Fin 3 → Nat) a + S64x1x64.size a ≤ S64x8x64.size a
  inb_S64x8x64x64_S64x1x64x64_0_6_0_0 : ∀ a, (![0, 6, 0, 0] : Fin 4 → Nat) a + S64x1x64x64.size a ≤ S64x8x64x64.size a
  inb_S64x8x64_S64x1x64_0_7_0 : ∀ a, (![0, 7, 0] : Fin 3 → Nat) a + S64x1x64.size a ≤ S64x8x64.size a
  inb_S64x8x64x64_S64x1x64x64_0_7_0_0 : ∀ a, (![0, 7, 0, 0] : Fin 4 → Nat) a + S64x1x64x64.size a ≤ S64x8x64x64.size a
  slices_S2048x128x64_S2048x24x64_0_8_0 : S2048x128x64.Slices ![0, 8, 0] S2048x24x64
  inb_S64x24x64_S64x1x64_0_0_0 : ∀ a, (![0, 0, 0] : Fin 3 → Nat) a + S64x1x64.size a ≤ S64x24x64.size a
  inb_S64x24x64_S64x1x64_0_1_0 : ∀ a, (![0, 1, 0] : Fin 3 → Nat) a + S64x1x64.size a ≤ S64x24x64.size a
  inb_S64x24x64_S64x1x64_0_2_0 : ∀ a, (![0, 2, 0] : Fin 3 → Nat) a + S64x1x64.size a ≤ S64x24x64.size a
  inb_S64x24x64_S64x1x64_0_3_0 : ∀ a, (![0, 3, 0] : Fin 3 → Nat) a + S64x1x64.size a ≤ S64x24x64.size a
  inb_S64x24x64_S64x1x64_0_4_0 : ∀ a, (![0, 4, 0] : Fin 3 → Nat) a + S64x1x64.size a ≤ S64x24x64.size a
  inb_S64x24x64_S64x1x64_0_5_0 : ∀ a, (![0, 5, 0] : Fin 3 → Nat) a + S64x1x64.size a ≤ S64x24x64.size a
  inb_S64x24x64_S64x1x64_0_6_0 : ∀ a, (![0, 6, 0] : Fin 3 → Nat) a + S64x1x64.size a ≤ S64x24x64.size a
  inb_S64x24x64_S64x1x64_0_7_0 : ∀ a, (![0, 7, 0] : Fin 3 → Nat) a + S64x1x64.size a ≤ S64x24x64.size a
  inb_S64x24x64_S64x1x64_0_8_0 : ∀ a, (![0, 8, 0] : Fin 3 → Nat) a + S64x1x64.size a ≤ S64x24x64.size a
  inb_S64x24x64_S64x1x64_0_9_0 : ∀ a, (![0, 9, 0] : Fin 3 → Nat) a + S64x1x64.size a ≤ S64x24x64.size a
  inb_S64x24x64_S64x1x64_0_10_0 : ∀ a, (![0, 10, 0] : Fin 3 → Nat) a + S64x1x64.size a ≤ S64x24x64.size a
  inb_S64x24x64_S64x1x64_0_11_0 : ∀ a, (![0, 11, 0] : Fin 3 → Nat) a + S64x1x64.size a ≤ S64x24x64.size a
  inb_S64x24x64_S64x1x64_0_12_0 : ∀ a, (![0, 12, 0] : Fin 3 → Nat) a + S64x1x64.size a ≤ S64x24x64.size a
  inb_S64x24x64_S64x1x64_0_13_0 : ∀ a, (![0, 13, 0] : Fin 3 → Nat) a + S64x1x64.size a ≤ S64x24x64.size a
  inb_S64x24x64_S64x1x64_0_14_0 : ∀ a, (![0, 14, 0] : Fin 3 → Nat) a + S64x1x64.size a ≤ S64x24x64.size a
  inb_S64x24x64_S64x1x64_0_15_0 : ∀ a, (![0, 15, 0] : Fin 3 → Nat) a + S64x1x64.size a ≤ S64x24x64.size a
  inb_S64x24x64_S64x1x64_0_16_0 : ∀ a, (![0, 16, 0] : Fin 3 → Nat) a + S64x1x64.size a ≤ S64x24x64.size a
  inb_S64x24x64_S64x1x64_0_17_0 : ∀ a, (![0, 17, 0] : Fin 3 → Nat) a + S64x1x64.size a ≤ S64x24x64.size a
  inb_S64x24x64_S64x1x64_0_18_0 : ∀ a, (![0, 18, 0] : Fin 3 → Nat) a + S64x1x64.size a ≤ S64x24x64.size a
  inb_S64x24x64_S64x1x64_0_19_0 : ∀ a, (![0, 19, 0] : Fin 3 → Nat) a + S64x1x64.size a ≤ S64x24x64.size a
  inb_S64x24x64_S64x1x64_0_20_0 : ∀ a, (![0, 20, 0] : Fin 3 → Nat) a + S64x1x64.size a ≤ S64x24x64.size a
  inb_S64x24x64_S64x1x64_0_21_0 : ∀ a, (![0, 21, 0] : Fin 3 → Nat) a + S64x1x64.size a ≤ S64x24x64.size a
  inb_S64x24x64_S64x1x64_0_22_0 : ∀ a, (![0, 22, 0] : Fin 3 → Nat) a + S64x1x64.size a ≤ S64x24x64.size a
  inb_S64x24x64_S64x1x64_0_23_0 : ∀ a, (![0, 23, 0] : Fin 3 → Nat) a + S64x1x64.size a ≤ S64x24x64.size a
  slices_S2048x128x64_S2048x40x64_0_32_0 : S2048x128x64.Slices ![0, 32, 0] S2048x40x64
  inb_S64x40x64_S64x1x64_0_0_0 : ∀ a, (![0, 0, 0] : Fin 3 → Nat) a + S64x1x64.size a ≤ S64x40x64.size a
  inb_S64x40x64_S64x1x64_0_1_0 : ∀ a, (![0, 1, 0] : Fin 3 → Nat) a + S64x1x64.size a ≤ S64x40x64.size a
  inb_S64x40x64_S64x1x64_0_2_0 : ∀ a, (![0, 2, 0] : Fin 3 → Nat) a + S64x1x64.size a ≤ S64x40x64.size a
  inb_S64x40x64_S64x1x64_0_3_0 : ∀ a, (![0, 3, 0] : Fin 3 → Nat) a + S64x1x64.size a ≤ S64x40x64.size a
  inb_S64x40x64_S64x1x64_0_4_0 : ∀ a, (![0, 4, 0] : Fin 3 → Nat) a + S64x1x64.size a ≤ S64x40x64.size a
  inb_S64x40x64_S64x1x64_0_5_0 : ∀ a, (![0, 5, 0] : Fin 3 → Nat) a + S64x1x64.size a ≤ S64x40x64.size a
  inb_S64x40x64_S64x1x64_0_6_0 : ∀ a, (![0, 6, 0] : Fin 3 → Nat) a + S64x1x64.size a ≤ S64x40x64.size a
  inb_S64x40x64_S64x1x64_0_7_0 : ∀ a, (![0, 7, 0] : Fin 3 → Nat) a + S64x1x64.size a ≤ S64x40x64.size a
  inb_S64x40x64_S64x1x64_0_8_0 : ∀ a, (![0, 8, 0] : Fin 3 → Nat) a + S64x1x64.size a ≤ S64x40x64.size a
  inb_S64x40x64_S64x1x64_0_9_0 : ∀ a, (![0, 9, 0] : Fin 3 → Nat) a + S64x1x64.size a ≤ S64x40x64.size a
  inb_S64x40x64_S64x1x64_0_10_0 : ∀ a, (![0, 10, 0] : Fin 3 → Nat) a + S64x1x64.size a ≤ S64x40x64.size a
  inb_S64x40x64_S64x1x64_0_11_0 : ∀ a, (![0, 11, 0] : Fin 3 → Nat) a + S64x1x64.size a ≤ S64x40x64.size a
  inb_S64x40x64_S64x1x64_0_12_0 : ∀ a, (![0, 12, 0] : Fin 3 → Nat) a + S64x1x64.size a ≤ S64x40x64.size a
  inb_S64x40x64_S64x1x64_0_13_0 : ∀ a, (![0, 13, 0] : Fin 3 → Nat) a + S64x1x64.size a ≤ S64x40x64.size a
  inb_S64x40x64_S64x1x64_0_14_0 : ∀ a, (![0, 14, 0] : Fin 3 → Nat) a + S64x1x64.size a ≤ S64x40x64.size a
  inb_S64x40x64_S64x1x64_0_15_0 : ∀ a, (![0, 15, 0] : Fin 3 → Nat) a + S64x1x64.size a ≤ S64x40x64.size a
  inb_S64x40x64_S64x1x64_0_16_0 : ∀ a, (![0, 16, 0] : Fin 3 → Nat) a + S64x1x64.size a ≤ S64x40x64.size a
  inb_S64x40x64_S64x1x64_0_17_0 : ∀ a, (![0, 17, 0] : Fin 3 → Nat) a + S64x1x64.size a ≤ S64x40x64.size a
  inb_S64x40x64_S64x1x64_0_18_0 : ∀ a, (![0, 18, 0] : Fin 3 → Nat) a + S64x1x64.size a ≤ S64x40x64.size a
  inb_S64x40x64_S64x1x64_0_19_0 : ∀ a, (![0, 19, 0] : Fin 3 → Nat) a + S64x1x64.size a ≤ S64x40x64.size a
  inb_S64x40x64_S64x1x64_0_20_0 : ∀ a, (![0, 20, 0] : Fin 3 → Nat) a + S64x1x64.size a ≤ S64x40x64.size a
  inb_S64x40x64_S64x1x64_0_21_0 : ∀ a, (![0, 21, 0] : Fin 3 → Nat) a + S64x1x64.size a ≤ S64x40x64.size a
  inb_S64x40x64_S64x1x64_0_22_0 : ∀ a, (![0, 22, 0] : Fin 3 → Nat) a + S64x1x64.size a ≤ S64x40x64.size a
  inb_S64x40x64_S64x1x64_0_23_0 : ∀ a, (![0, 23, 0] : Fin 3 → Nat) a + S64x1x64.size a ≤ S64x40x64.size a
  inb_S64x40x64_S64x1x64_0_24_0 : ∀ a, (![0, 24, 0] : Fin 3 → Nat) a + S64x1x64.size a ≤ S64x40x64.size a
  inb_S64x40x64_S64x1x64_0_25_0 : ∀ a, (![0, 25, 0] : Fin 3 → Nat) a + S64x1x64.size a ≤ S64x40x64.size a
  inb_S64x40x64_S64x1x64_0_26_0 : ∀ a, (![0, 26, 0] : Fin 3 → Nat) a + S64x1x64.size a ≤ S64x40x64.size a
  inb_S64x40x64_S64x1x64_0_27_0 : ∀ a, (![0, 27, 0] : Fin 3 → Nat) a + S64x1x64.size a ≤ S64x40x64.size a
  inb_S64x40x64_S64x1x64_0_28_0 : ∀ a, (![0, 28, 0] : Fin 3 → Nat) a + S64x1x64.size a ≤ S64x40x64.size a
  inb_S64x40x64_S64x1x64_0_29_0 : ∀ a, (![0, 29, 0] : Fin 3 → Nat) a + S64x1x64.size a ≤ S64x40x64.size a
  inb_S64x40x64_S64x1x64_0_30_0 : ∀ a, (![0, 30, 0] : Fin 3 → Nat) a + S64x1x64.size a ≤ S64x40x64.size a
  inb_S64x40x64_S64x1x64_0_31_0 : ∀ a, (![0, 31, 0] : Fin 3 → Nat) a + S64x1x64.size a ≤ S64x40x64.size a
  inb_S64x40x64_S64x1x64_0_32_0 : ∀ a, (![0, 32, 0] : Fin 3 → Nat) a + S64x1x64.size a ≤ S64x40x64.size a
  inb_S64x40x64_S64x1x64_0_33_0 : ∀ a, (![0, 33, 0] : Fin 3 → Nat) a + S64x1x64.size a ≤ S64x40x64.size a
  inb_S64x40x64_S64x1x64_0_34_0 : ∀ a, (![0, 34, 0] : Fin 3 → Nat) a + S64x1x64.size a ≤ S64x40x64.size a
  inb_S64x40x64_S64x1x64_0_35_0 : ∀ a, (![0, 35, 0] : Fin 3 → Nat) a + S64x1x64.size a ≤ S64x40x64.size a
  inb_S64x40x64_S64x1x64_0_36_0 : ∀ a, (![0, 36, 0] : Fin 3 → Nat) a + S64x1x64.size a ≤ S64x40x64.size a
  inb_S64x40x64_S64x1x64_0_37_0 : ∀ a, (![0, 37, 0] : Fin 3 → Nat) a + S64x1x64.size a ≤ S64x40x64.size a
  inb_S64x40x64_S64x1x64_0_38_0 : ∀ a, (![0, 38, 0] : Fin 3 → Nat) a + S64x1x64.size a ≤ S64x40x64.size a
  inb_S64x40x64_S64x1x64_0_39_0 : ∀ a, (![0, 39, 0] : Fin 3 → Nat) a + S64x1x64.size a ≤ S64x40x64.size a
  slices_S2048x128x64_S2048x56x64_0_72_0 : S2048x128x64.Slices ![0, 72, 0] S2048x56x64
  inb_S64x56x64_S64x1x64_0_0_0 : ∀ a, (![0, 0, 0] : Fin 3 → Nat) a + S64x1x64.size a ≤ S64x56x64.size a
  inb_S64x56x64_S64x1x64_0_1_0 : ∀ a, (![0, 1, 0] : Fin 3 → Nat) a + S64x1x64.size a ≤ S64x56x64.size a
  inb_S64x56x64_S64x1x64_0_2_0 : ∀ a, (![0, 2, 0] : Fin 3 → Nat) a + S64x1x64.size a ≤ S64x56x64.size a
  inb_S64x56x64_S64x1x64_0_3_0 : ∀ a, (![0, 3, 0] : Fin 3 → Nat) a + S64x1x64.size a ≤ S64x56x64.size a
  inb_S64x56x64_S64x1x64_0_4_0 : ∀ a, (![0, 4, 0] : Fin 3 → Nat) a + S64x1x64.size a ≤ S64x56x64.size a
  inb_S64x56x64_S64x1x64_0_5_0 : ∀ a, (![0, 5, 0] : Fin 3 → Nat) a + S64x1x64.size a ≤ S64x56x64.size a
  inb_S64x56x64_S64x1x64_0_6_0 : ∀ a, (![0, 6, 0] : Fin 3 → Nat) a + S64x1x64.size a ≤ S64x56x64.size a
  inb_S64x56x64_S64x1x64_0_7_0 : ∀ a, (![0, 7, 0] : Fin 3 → Nat) a + S64x1x64.size a ≤ S64x56x64.size a
  inb_S64x56x64_S64x1x64_0_8_0 : ∀ a, (![0, 8, 0] : Fin 3 → Nat) a + S64x1x64.size a ≤ S64x56x64.size a
  inb_S64x56x64_S64x1x64_0_9_0 : ∀ a, (![0, 9, 0] : Fin 3 → Nat) a + S64x1x64.size a ≤ S64x56x64.size a
  inb_S64x56x64_S64x1x64_0_10_0 : ∀ a, (![0, 10, 0] : Fin 3 → Nat) a + S64x1x64.size a ≤ S64x56x64.size a
  inb_S64x56x64_S64x1x64_0_11_0 : ∀ a, (![0, 11, 0] : Fin 3 → Nat) a + S64x1x64.size a ≤ S64x56x64.size a
  inb_S64x56x64_S64x1x64_0_12_0 : ∀ a, (![0, 12, 0] : Fin 3 → Nat) a + S64x1x64.size a ≤ S64x56x64.size a
  inb_S64x56x64_S64x1x64_0_13_0 : ∀ a, (![0, 13, 0] : Fin 3 → Nat) a + S64x1x64.size a ≤ S64x56x64.size a
  inb_S64x56x64_S64x1x64_0_14_0 : ∀ a, (![0, 14, 0] : Fin 3 → Nat) a + S64x1x64.size a ≤ S64x56x64.size a
  inb_S64x56x64_S64x1x64_0_15_0 : ∀ a, (![0, 15, 0] : Fin 3 → Nat) a + S64x1x64.size a ≤ S64x56x64.size a
  inb_S64x56x64_S64x1x64_0_16_0 : ∀ a, (![0, 16, 0] : Fin 3 → Nat) a + S64x1x64.size a ≤ S64x56x64.size a
  inb_S64x56x64_S64x1x64_0_17_0 : ∀ a, (![0, 17, 0] : Fin 3 → Nat) a + S64x1x64.size a ≤ S64x56x64.size a
  inb_S64x56x64_S64x1x64_0_18_0 : ∀ a, (![0, 18, 0] : Fin 3 → Nat) a + S64x1x64.size a ≤ S64x56x64.size a
  inb_S64x56x64_S64x1x64_0_19_0 : ∀ a, (![0, 19, 0] : Fin 3 → Nat) a + S64x1x64.size a ≤ S64x56x64.size a
  inb_S64x56x64_S64x1x64_0_20_0 : ∀ a, (![0, 20, 0] : Fin 3 → Nat) a + S64x1x64.size a ≤ S64x56x64.size a
  inb_S64x56x64_S64x1x64_0_21_0 : ∀ a, (![0, 21, 0] : Fin 3 → Nat) a + S64x1x64.size a ≤ S64x56x64.size a
  inb_S64x56x64_S64x1x64_0_22_0 : ∀ a, (![0, 22, 0] : Fin 3 → Nat) a + S64x1x64.size a ≤ S64x56x64.size a
  inb_S64x56x64_S64x1x64_0_23_0 : ∀ a, (![0, 23, 0] : Fin 3 → Nat) a + S64x1x64.size a ≤ S64x56x64.size a
  inb_S64x56x64_S64x1x64_0_24_0 : ∀ a, (![0, 24, 0] : Fin 3 → Nat) a + S64x1x64.size a ≤ S64x56x64.size a
  inb_S64x56x64_S64x1x64_0_25_0 : ∀ a, (![0, 25, 0] : Fin 3 → Nat) a + S64x1x64.size a ≤ S64x56x64.size a
  inb_S64x56x64_S64x1x64_0_26_0 : ∀ a, (![0, 26, 0] : Fin 3 → Nat) a + S64x1x64.size a ≤ S64x56x64.size a
  inb_S64x56x64_S64x1x64_0_27_0 : ∀ a, (![0, 27, 0] : Fin 3 → Nat) a + S64x1x64.size a ≤ S64x56x64.size a
  inb_S64x56x64_S64x1x64_0_28_0 : ∀ a, (![0, 28, 0] : Fin 3 → Nat) a + S64x1x64.size a ≤ S64x56x64.size a
  inb_S64x56x64_S64x1x64_0_29_0 : ∀ a, (![0, 29, 0] : Fin 3 → Nat) a + S64x1x64.size a ≤ S64x56x64.size a
  inb_S64x56x64_S64x1x64_0_30_0 : ∀ a, (![0, 30, 0] : Fin 3 → Nat) a + S64x1x64.size a ≤ S64x56x64.size a
  inb_S64x56x64_S64x1x64_0_31_0 : ∀ a, (![0, 31, 0] : Fin 3 → Nat) a + S64x1x64.size a ≤ S64x56x64.size a
  inb_S64x56x64_S64x1x64_0_32_0 : ∀ a, (![0, 32, 0] : Fin 3 → Nat) a + S64x1x64.size a ≤ S64x56x64.size a
  inb_S64x56x64_S64x1x64_0_33_0 : ∀ a, (![0, 33, 0] : Fin 3 → Nat) a + S64x1x64.size a ≤ S64x56x64.size a
  inb_S64x56x64_S64x1x64_0_34_0 : ∀ a, (![0, 34, 0] : Fin 3 → Nat) a + S64x1x64.size a ≤ S64x56x64.size a
  inb_S64x56x64_S64x1x64_0_35_0 : ∀ a, (![0, 35, 0] : Fin 3 → Nat) a + S64x1x64.size a ≤ S64x56x64.size a
  inb_S64x56x64_S64x1x64_0_36_0 : ∀ a, (![0, 36, 0] : Fin 3 → Nat) a + S64x1x64.size a ≤ S64x56x64.size a
  inb_S64x56x64_S64x1x64_0_37_0 : ∀ a, (![0, 37, 0] : Fin 3 → Nat) a + S64x1x64.size a ≤ S64x56x64.size a
  inb_S64x56x64_S64x1x64_0_38_0 : ∀ a, (![0, 38, 0] : Fin 3 → Nat) a + S64x1x64.size a ≤ S64x56x64.size a
  inb_S64x56x64_S64x1x64_0_39_0 : ∀ a, (![0, 39, 0] : Fin 3 → Nat) a + S64x1x64.size a ≤ S64x56x64.size a
  inb_S64x56x64_S64x1x64_0_40_0 : ∀ a, (![0, 40, 0] : Fin 3 → Nat) a + S64x1x64.size a ≤ S64x56x64.size a
  inb_S64x56x64_S64x1x64_0_41_0 : ∀ a, (![0, 41, 0] : Fin 3 → Nat) a + S64x1x64.size a ≤ S64x56x64.size a
  inb_S64x56x64_S64x1x64_0_42_0 : ∀ a, (![0, 42, 0] : Fin 3 → Nat) a + S64x1x64.size a ≤ S64x56x64.size a
  inb_S64x56x64_S64x1x64_0_43_0 : ∀ a, (![0, 43, 0] : Fin 3 → Nat) a + S64x1x64.size a ≤ S64x56x64.size a
  inb_S64x56x64_S64x1x64_0_44_0 : ∀ a, (![0, 44, 0] : Fin 3 → Nat) a + S64x1x64.size a ≤ S64x56x64.size a
  inb_S64x56x64_S64x1x64_0_45_0 : ∀ a, (![0, 45, 0] : Fin 3 → Nat) a + S64x1x64.size a ≤ S64x56x64.size a
  inb_S64x56x64_S64x1x64_0_46_0 : ∀ a, (![0, 46, 0] : Fin 3 → Nat) a + S64x1x64.size a ≤ S64x56x64.size a
  inb_S64x56x64_S64x1x64_0_47_0 : ∀ a, (![0, 47, 0] : Fin 3 → Nat) a + S64x1x64.size a ≤ S64x56x64.size a
  inb_S64x56x64_S64x1x64_0_48_0 : ∀ a, (![0, 48, 0] : Fin 3 → Nat) a + S64x1x64.size a ≤ S64x56x64.size a
  inb_S64x56x64_S64x1x64_0_49_0 : ∀ a, (![0, 49, 0] : Fin 3 → Nat) a + S64x1x64.size a ≤ S64x56x64.size a
  inb_S64x56x64_S64x1x64_0_50_0 : ∀ a, (![0, 50, 0] : Fin 3 → Nat) a + S64x1x64.size a ≤ S64x56x64.size a
  inb_S64x56x64_S64x1x64_0_51_0 : ∀ a, (![0, 51, 0] : Fin 3 → Nat) a + S64x1x64.size a ≤ S64x56x64.size a
  inb_S64x56x64_S64x1x64_0_52_0 : ∀ a, (![0, 52, 0] : Fin 3 → Nat) a + S64x1x64.size a ≤ S64x56x64.size a
  inb_S64x56x64_S64x1x64_0_53_0 : ∀ a, (![0, 53, 0] : Fin 3 → Nat) a + S64x1x64.size a ≤ S64x56x64.size a
  inb_S64x56x64_S64x1x64_0_54_0 : ∀ a, (![0, 54, 0] : Fin 3 → Nat) a + S64x1x64.size a ≤ S64x56x64.size a
  inb_S64x56x64_S64x1x64_0_55_0 : ∀ a, (![0, 55, 0] : Fin 3 → Nat) a + S64x1x64.size a ≤ S64x56x64.size a
  concatenates_S2048x8x64x64_S2048x8x64x64_S2048x8x64x64_S2048x8x64x64_S2048x32x64x64_d1 : Shape.Concatenates [S2048x8x64x64, S2048x8x64x64, S2048x8x64x64, S2048x8x64x64] S2048x32x64x64 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x64.size a ≤ S2048x8x64.size a
  hwx0_0 : ∀ i : grid0.Coords, EltTy.bits .f32 = 32 ∨ (Rect.block (s := S2048x8x64) S64x8x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8x64.size a ≤ S2048x8x64.size a
  hwx0_1 : ∀ i : grid0.Coords, EltTy.bits .f32 = 32 ∨ (Rect.block (s := S2048x8x64) S64x8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8x64x64.size a ≤ S2048x8x64x64.size a
  hwx0_2 : ∀ i : grid0.Coords, EltTy.bits .f32 = 32 ∨ (Rect.block (s := S2048x8x64x64) S64x8x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x24x64.size a ≤ S2048x24x64.size a
  hwx1_0 : ∀ i : grid1.Coords, EltTy.bits .f32 = 32 ∨ (Rect.block (s := S2048x24x64) S64x24x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x24x64.size a ≤ S2048x24x64.size a
  hwx1_1 : ∀ i : grid1.Coords, EltTy.bits .f32 = 32 ∨ (Rect.block (s := S2048x24x64) S64x24x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x8x64x64.size a ≤ S2048x8x64x64.size a
  hwx1_2 : ∀ i : grid1.Coords, EltTy.bits .f32 = 32 ∨ (Rect.block (s := S2048x8x64x64) S64x8x64x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x40x64.size a ≤ S2048x40x64.size a
  hwx2_0 : ∀ i : grid2.Coords, EltTy.bits .f32 = 32 ∨ (Rect.block (s := S2048x40x64) S64x40x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x40x64.size a ≤ S2048x40x64.size a
  hwx2_1 : ∀ i : grid2.Coords, EltTy.bits .f32 = 32 ∨ (Rect.block (s := S2048x40x64) S64x40x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S64x8x64x64.size a ≤ S2048x8x64x64.size a
  hwx2_2 : ∀ i : grid2.Coords, EltTy.bits .f32 = 32 ∨ (Rect.block (s := S2048x8x64x64) S64x8x64x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x56x64.size a ≤ S2048x56x64.size a
  hwx3_0 : ∀ i : grid3.Coords, EltTy.bits .f32 = 32 ∨ (Rect.block (s := S2048x56x64) S64x56x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x56x64.size a ≤ S2048x56x64.size a
  hwx3_1 : ∀ i : grid3.Coords, EltTy.bits .f32 = 32 ∨ (Rect.block (s := S2048x56x64) S64x56x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x8x64x64.size a ≤ S2048x8x64x64.size a
  hwx3_2 : ∀ i : grid3.Coords, EltTy.bits .f32 = 32 ∨ (Rect.block (s := S2048x8x64x64) S64x8x64x64.size (cc3_transform_2 i) (hinb3_2 i)).WholeWords (EltTy.packing .f32)

variable [Facts₀]

abbrev win0_0 : Pipeline.Window sig grid0 :=
  Pipeline.Window.ofSpec (Memref.whole main_v0) S64x8x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x8x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x8x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S64x24x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S64x24x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x8x64x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v6) S64x40x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S64x40x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S64x8x64x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v9) S64x56x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S64x56x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S64x8x64x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S2048x128x64 : Shape := ⟨3, ![2048, 128, 64]⟩
abbrev S2048x8x64 : Shape := ⟨3, ![2048, 8, 64]⟩
abbrev S2048x8x1x64 : Shape := ⟨4, ![2048, 8, 1, 64]⟩
abbrev S2048x8x64x64 : Shape := ⟨4, ![2048, 8, 64, 64]⟩
abbrev S_ : Shape := ⟨0, ![]⟩
abbrev S2048x24x64 : Shape := ⟨3, ![2048, 24, 64]⟩
abbrev S2048x8x3x64 : Shape := ⟨4, ![2048, 8, 3, 64]⟩
abbrev S2048x40x64 : Shape := ⟨3, ![2048, 40, 64]⟩
abbrev S2048x8x5x64 : Shape := ⟨4, ![2048, 8, 5, 64]⟩
abbrev S2048x56x64 : Shape := ⟨3, ![2048, 56, 64]⟩
abbrev S2048x8x7x64 : Shape := ⟨4, ![2048, 8, 7, 64]⟩
abbrev S2048x32x64x64 : Shape := ⟨4, ![2048, 32, 64, 64]⟩

abbrev nBuf : Space → Nat
  | .hbm => 35
  | .vmem => 0
  | .smem => 0
  | _ => 0

abbrev bufTy : (tb : Table) → Fin (tcTables nBuf tb) → BufTy
  | .hbm, ⟨0, _⟩ => ⟨S2048x128x64, .f32⟩
  | .hbm, ⟨1, _⟩ => ⟨S2048x128x64, .f32⟩
  | .hbm, ⟨2, _⟩ => ⟨S2048x8x64, .f32⟩
  | .hbm, ⟨3, _⟩ => ⟨S2048x8x1x64, .f32⟩
  | .hbm, ⟨4, _⟩ => ⟨S2048x8x64, .f32⟩
  | .hbm, ⟨5, _⟩ => ⟨S2048x8x1x64, .f32⟩
  | .hbm, ⟨6, _⟩ => ⟨S2048x8x64x64, .f32⟩
  | .hbm, ⟨7, _⟩ => ⟨S_, .f32⟩
  | .hbm, ⟨8, _⟩ => ⟨S2048x8x64x64, .f32⟩
  | .hbm, ⟨9, _⟩ => ⟨S2048x8x64x64, .f32⟩
  | .hbm, ⟨10, _⟩ => ⟨S2048x24x64, .f32⟩
  | .hbm, ⟨11, _⟩ => ⟨S2048x8x3x64, .f32⟩
  | .hbm, ⟨12, _⟩ => ⟨S2048x24x64, .f32⟩
  | .hbm, ⟨13, _⟩ => ⟨S2048x8x3x64, .f32⟩
  | .hbm, ⟨14, _⟩ => ⟨S2048x8x64x64, .f32⟩
  | .hbm, ⟨15, _⟩ => ⟨S_, .f32⟩
  | .hbm, ⟨16, _⟩ => ⟨S2048x8x64x64, .f32⟩
  | .hbm, ⟨17, _⟩ => ⟨S2048x8x64x64, .f32⟩
  | .hbm, ⟨18, _⟩ => ⟨S2048x40x64, .f32⟩
  | .hbm, ⟨19, _⟩ => ⟨S2048x8x5x64, .f32⟩
  | .hbm, ⟨20, _⟩ => ⟨S2048x40x64, .f32⟩
  | .hbm, ⟨21, _⟩ => ⟨S2048x8x5x64, .f32⟩
  | .hbm, ⟨22, _⟩ => ⟨S2048x8x64x64, .f32⟩
  | .hbm, ⟨23, _⟩ => ⟨S_, .f32⟩
  | .hbm, ⟨24, _⟩ => ⟨S2048x8x64x64, .f32⟩
  | .hbm, ⟨25, _⟩ => ⟨S2048x8x64x64, .f32⟩
  | .hbm, ⟨26, _⟩ => ⟨S2048x56x64, .f32⟩
  | .hbm, ⟨27, _⟩ => ⟨S2048x8x7x64, .f32⟩
  | .hbm, ⟨28, _⟩ => ⟨S2048x56x64, .f32⟩
  | .hbm, ⟨29, _⟩ => ⟨S2048x8x7x64, .f32⟩
  | .hbm, ⟨30, _⟩ => ⟨S2048x8x64x64, .f32⟩
  | .hbm, ⟨31, _⟩ => ⟨S_, .f32⟩
  | .hbm, ⟨32, _⟩ => ⟨S2048x8x64x64, .f32⟩
  | .hbm, ⟨33, _⟩ => ⟨S2048x8x64x64, .f32⟩
  | .hbm, ⟨34, _⟩ => ⟨S2048x32x64x64, .f32⟩
  | _, _ => ⟨S2048x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  slices_S2048x128x64_S2048x8x64_0_0_0 : S2048x128x64.Slices ![0, 0, 0] S2048x8x64
  shapeCasts_S2048x8x64_S2048x8x1x64 : S2048x8x64.ShapeCasts S2048x8x1x64
  bcast_S_S2048x8x64x64 : S_.BroadcastsInDim S2048x8x64x64 (![] : Fin 0 → Fin S2048x8x64x64.rank)
  slices_S2048x128x64_S2048x24x64_0_8_0 : S2048x128x64.Slices ![0, 8, 0] S2048x24x64
  shapeCasts_S2048x24x64_S2048x8x3x64 : S2048x24x64.ShapeCasts S2048x8x3x64
  slices_S2048x128x64_S2048x40x64_0_32_0 : S2048x128x64.Slices ![0, 32, 0] S2048x40x64
  shapeCasts_S2048x40x64_S2048x8x5x64 : S2048x40x64.ShapeCasts S2048x8x5x64
  slices_S2048x128x64_S2048x56x64_0_72_0 : S2048x128x64.Slices ![0, 72, 0] S2048x56x64
  shapeCasts_S2048x56x64_S2048x8x7x64 : S2048x56x64.ShapeCasts S2048x8x7x64
  concatenates_S2048x8x64x64_S2048x8x64x64_S2048x8x64x64_S2048x8x64x64_S2048x32x64x64_d1 : Shape.Concatenates [S2048x8x64x64, S2048x8x64x64, S2048x8x64x64, S2048x8x64x64] S2048x32x64x64 1
  dot_S2048x8x1x64_S2048x8x1x64_S2048x8x64x64_2_2_3_3_01_01_wf : DotDims.WF S2048x8x1x64 S2048x8x1x64 S2048x8x64x64 [2] [2] [3] [3] [0, 1] [0, 1]
  dot_S2048x8x3x64_S2048x8x3x64_S2048x8x64x64_2_2_3_3_01_01_wf : DotDims.WF S2048x8x3x64 S2048x8x3x64 S2048x8x64x64 [2] [2] [3] [3] [0, 1] [0, 1]
  dot_S2048x8x5x64_S2048x8x5x64_S2048x8x64x64_2_2_3_3_01_01_wf : DotDims.WF S2048x8x5x64 S2048x8x5x64 S2048x8x64x64 [2] [2] [3] [3] [0, 1] [0, 1]
  dot_S2048x8x7x64_S2048x8x7x64_S2048x8x64x64_2_2_3_3_01_01_wf : DotDims.WF S2048x8x7x64 S2048x8x7x64 S2048x8x64x64 [2] [2] [3] [3] [0, 1] [0, 1]

variable [Facts₀]

def dot_S2048x8x1x64_S2048x8x1x64_S2048x8x64x64_2_2_3_3_01_01 : DotDims S2048x8x1x64 S2048x8x1x64 S2048x8x64x64 where
  lhsContracting := [2]
  rhsContracting := [2]
  lhsNonContracting := [3]
  rhsNonContracting := [3]
  lhsBatch := [0, 1]
  rhsBatch := [0, 1]
  wf := dot_S2048x8x1x64_S2048x8x1x64_S2048x8x64x64_2_2_3_3_01_01_wf
def dot_S2048x8x3x64_S2048x8x3x64_S2048x8x64x64_2_2_3_3_01_01 : DotDims S2048x8x3x64 S2048x8x3x64 S2048x8x64x64 where
  lhsContracting := [2]
  rhsContracting := [2]
  lhsNonContracting := [3]
  rhsNonContracting := [3]
  lhsBatch := [0, 1]
  rhsBatch := [0, 1]
  wf := dot_S2048x8x3x64_S2048x8x3x64_S2048x8x64x64_2_2_3_3_01_01_wf
def dot_S2048x8x5x64_S2048x8x5x64_S2048x8x64x64_2_2_3_3_01_01 : DotDims S2048x8x5x64 S2048x8x5x64 S2048x8x64x64 where
  lhsContracting := [2]
  rhsContracting := [2]
  lhsNonContracting := [3]
  rhsNonContracting := [3]
  lhsBatch := [0, 1]
  rhsBatch := [0, 1]
  wf := dot_S2048x8x5x64_S2048x8x5x64_S2048x8x64x64_2_2_3_3_01_01_wf
def dot_S2048x8x7x64_S2048x8x7x64_S2048x8x64x64_2_2_3_3_01_01 : DotDims S2048x8x7x64 S2048x8x7x64 S2048x8x64x64 where
  lhsContracting := [2]
  rhsContracting := [2]
  lhsNonContracting := [3]
  rhsNonContracting := [3]
  lhsBatch := [0, 1]
  rhsBatch := [0, 1]
  wf := dot_S2048x8x7x64_S2048x8x7x64_S2048x8x64x64_2_2_3_3_01_01_wf

class Facts : Prop extends Facts₀ where

variable [Facts]
-- ==== Proof.Bits.Pieces.lean ====
/-
  What one store of a kernel body writes, as a term of the two input blocks. Every body of this program does the
  same thing eight times: for the multiplicity index `i` it adds up, from zero and in order, the outer products
  `a_m[n, u] · b_m[n, v]` of the rows `k = d·i + m` (`m < d`) of its two input blocks, multiplies the sum by one
  scalar, and stores the `[64, 1, 64, 64]` result as row `i` of the output block. Here are the pieces common to the
  four bodies: the outer product of two rows, the zero the sum starts from, the scaling and recast of the sum, the
  eight rows of the output block as rectangles, and that those rows cover the block.
-/
import proofs.«102490_j7232724927058_2_alg».proof.Proof.Gen.Kernel.Launch
import proofs.«102490_j7232724927058_2_alg».proof.Proof.Gen.Kernel.Skeleton
import proofs.«102490_j7232724927058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- The outer product of two `[64, 1, 64]` rows over the channel axes: at `(n, u, v)` it is `a[n, 0, u] · b[n, 0, v]`
    (the first row recast to `[64, 64, 1]`, the second kept `[64, 1, 64]`, both broadcast to `[64, 64, 64]`). -/
def outer (a b : Vec F S64x1x64 .f32) : FVec F S64x64x64 .f32 :=
  mulf (broadcastTo S64x64x64 (shapeCast S64x64x1 (shapeCast S64x64 a shapeCasts_S64x1x64_S64x64) shapeCasts_S64x64_S64x64x1) broadcasts_S64x64x1_S64x64x64)
    (broadcastTo S64x64x64 (shapeCast S64x1x64 (shapeCast S64x64 b shapeCasts_S64x1x64_S64x64) shapeCasts_S64x64_S64x1x64) broadcasts_S64x1x64_S64x64x64)

/-- The sum starts from zero. -/
def zacc : FVec F S64x64x64 .f32 := broadcast S64x64x64 (Scalar.ofBits .f32 0x00000000#32)

/-- The finished sum times the scalar whose word is `w`, as one row `[64, 1, 64, 64]` of the output block. -/
def scaled (acc : FVec F S64x64x64 .f32) (w : BitVec 32) : FVec F S64x1x64x64 .f32 :=
  shapeCast S64x1x64x64 (mulf acc (broadcast S64x64x64 (Scalar.ofBits .f32 w))) shapeCasts_S64x64x64_S64x1x64x64

theorem inb_srow (i : Nat) (hi : i < 8) : ∀ a, (![0, i, 0, 0] : Fin 4 → Nat) a + S64x1x64x64.size a ≤ S64x8x64x64.size a := by
  intro a; fin_cases a <;> simp <;> omega

/-- Row `i` of the `[64, 8, 64, 64]` output block. -/
abbrev srow (i : Nat) (hi : i < 8 := by decide) : Rect S64x8x64x64 :=
  Rect.unit (s := S64x8x64x64) ![0, i, 0, 0] S64x1x64x64.size (inb_srow i hi)

/-- The eight rows tile the output block, so eight stores through them, whatever they store, cover it. -/
theorem cover_rows (p0 : (srow 0).shape.Idx → Elt F .f32) (p1 : (srow 1).shape.Idx → Elt F .f32) (p2 : (srow 2).shape.Idx → Elt F .f32)
    (p3 : (srow 3).shape.Idx → Elt F .f32) (p4 : (srow 4).shape.Idx → Elt F .f32) (p5 : (srow 5).shape.Idx → Elt F .f32)
    (p6 : (srow 6).shape.Idx → Elt F .f32) (p7 : (srow 7).shape.Idx → Elt F .f32) (y : S64x8x64x64.Idx) :
    ∃ pc ∈ ([⟨srow 7, p7⟩, ⟨srow 6, p6⟩, ⟨srow 5, p5⟩, ⟨srow 4, p4⟩, ⟨srow 3, p3⟩, ⟨srow 2, p2⟩, ⟨srow 1, p1⟩, ⟨srow 0, p0⟩] : List (View.Piece (Elt F) S64x8x64x64 .f32)), y ∈ pc.1.set :=
  View.cover_of_tiled (s := S64x8x64x64) [⟨srow 7, p7⟩, ⟨srow 6, p6⟩, ⟨srow 5, p5⟩, ⟨srow 4, p4⟩, ⟨srow 3, p3⟩, ⟨srow 2, p2⟩, ⟨srow 1, p1⟩, ⟨srow 0, p0⟩]
    (![64, 1, 64, 64] : Fin 4 → Nat) (by rfl) y

end Cert.Kernel.Frame

end
-- ==== Proof.Bits.Region0.lean ====
/-
  Kernel body 0 of the program (the rows of the two inputs that belong to the irreducible representation of
  dimension d = 1): what it leaves in its output block, and that it runs. At grid point `t` the body is handed
  block `t` of each input — rows `[64 t, 64 t + 64)`, all 8 sub-rows, all 64 channels — and fills the output block
  `[64, 8, 64, 64]` row by row: row `i` is `(Σ_{m < 1} x0[n, 1 i + m, u] · x1[n, 1 i + m, v]) · s`, the sum taken from zero in
  the order of `m`, `s` the scalar whose word is `0x3F800000#32`. `out0` states that as the eight stores' values over the
  eight rows; `sound_kernel0` runs the body against it; `dat0` and `body_obligation0` are what the pipeline's
  launch theorem asks of a body (the input blocks stay in their staging buffers, the output's buffer ends at `out0`
  of them, nothing else is touched).
-/
import proofs.«102490_j7232724927058_2_alg».proof.Proof.Gen.Kernel.Launch
import proofs.«102490_j7232724927058_2_alg».proof.Proof.Gen.Kernel.Skeleton
import proofs.«102490_j7232724927058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Bits.Pieces
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## What the body stores -/

theorem inb_lrow0 (k : Nat) (hk : k < 8) : ∀ a, (![0, k, 0] : Fin 3 → Nat) a + S64x1x64.size a ≤ S64x8x64.size a := by
  intro a; fin_cases a <;> simp <;> omega

/-- Sub-row `k` of an input block `[64, 8, 64]`. -/
abbrev lrow0 (k : Nat) (hk : k < 8 := by decide) : Rect S64x8x64 :=
  Rect.unit (s := S64x8x64) ![0, k, 0] S64x1x64.size (inb_lrow0 k hk)

/-- The outer product of sub-row `k` of the two input blocks. -/
def term0 (x0 x1 : Vec F S64x8x64 .f32) (k : Nat) (hk : k < 8 := by decide) : FVec F S64x64x64 .f32 :=
  outer (View.ld x0 (lrow0 k hk)) (View.ld x1 (lrow0 k hk))

/-- Row `i` of the output block: the sum over `m < 1` of the outer products of sub-rows `1 i + m`, from zero, in order,
    times the scalar. -/
def piece0 (x0 x1 : Vec F S64x8x64 .f32) (i : Nat) (hi : i < 8 := by decide) : FVec F S64x1x64x64 .f32 :=
  scaled (addf (zacc) (term0 x0 x1 (1 * i + 0) (by omega))) 0x3F800000#32

/-- The output block after the body: its eight stores, last first. -/
def out0 (x0 x1 : Vec F S64x8x64 .f32) : Vec F S64x8x64x64 .f32 :=
  View.canon [⟨srow 7, piece0 x0 x1 7⟩, ⟨srow 6, piece0 x0 x1 6⟩, ⟨srow 5, piece0 x0 x1 5⟩, ⟨srow 4, piece0 x0 x1 4⟩,
    ⟨srow 3, piece0 x0 x1 3⟩, ⟨srow 2, piece0 x0 x1 2⟩, ⟨srow 1, piece0 x0 x1 1⟩, ⟨srow 0, piece0 x0 x1 0⟩]

/-! ## The body's triple -/

set_option maxHeartbeats 1000000 in
/-- The body on whole staging memrefs — the inputs' at contents `x0`, `x1`, the output's at anything — runs to the
    continuation with the inputs' as they were and the output's at `out0 x0 x1`: the symbolic run leaves the output's
    buffer as eight writes whose values are, once their names are unfolded, the eight rows above. -/
theorem sound_kernel0 (c : Dev nD) (E : Set ℕ) (i : grid0.Coords)
    (arg1 : Memref sig .tc .vmem S64x8x64 .f32) (harg1 : arg1.IsWhole) (arg2 : Memref sig .tc .vmem S64x8x64 .f32) (harg2 : arg2.IsWhole)
    (arg3 : Memref sig .tc .vmem S64x8x64x64 .f32) (harg3 : arg3.IsWhole)
    (x0 x1 : Vec F S64x8x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rows _ _ _ _ _ _ _ _)

section Region

variable (V : (c : Dev nD) → (b : Ref sig .tc) → Buf (Elt F) ((c : Thread nD τ).loc b))

/-! ## The pipeline's proof data -/

/-- The proof data of pipeline 0 on core `c`: the arrays as the region finds them; after the body at point `t` each input's
    buffer at its block and the output's at `out0` of the input blocks; the invariant the plain one (the scoped rest and the
    generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Kernel.Frame

end
-- ==== Proof.Bits.Region1.lean ====
/-
  Kernel body 1 of the program (the rows of the two inputs that belong to the irreducible representation of
  dimension d = 3): what it leaves in its output block, and that it runs. At grid point `t` the body is handed
  block `t` of each input — rows `[64 t, 64 t + 64)`, all 24 sub-rows, all 64 channels — and fills the output block
  `[64, 8, 64, 64]` row by row: row `i` is `(Σ_{m < 3} x0[n, 3 i + m, u] · x1[n, 3 i + m, v]) · s`, the sum taken from zero in
  the order of `m`, `s` the scalar whose word is `0x3F13CD3A#32`. `out1` states that as the eight stores' values over the
  eight rows; `sound_kernel1` runs the body against it; `dat1` and `body_obligation1` are what the pipeline's
  launch theorem asks of a body (the input blocks stay in their staging buffers, the output's buffer ends at `out1`
  of them, nothing else is touched).
-/
import proofs.«102490_j7232724927058_2_alg».proof.Proof.Gen.Kernel.Launch
import proofs.«102490_j7232724927058_2_alg».proof.Proof.Gen.Kernel.Skeleton
import proofs.«102490_j7232724927058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Bits.Pieces
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## What the body stores -/

theorem inb_lrow1 (k : Nat) (hk : k < 24) : ∀ a, (![0, k, 0] : Fin 3 → Nat) a + S64x1x64.size a ≤ S64x24x64.size a := by
  intro a; fin_cases a <;> simp <;> omega

/-- Sub-row `k` of an input block `[64, 24, 64]`. -/
abbrev lrow1 (k : Nat) (hk : k < 24 := by decide) : Rect S64x24x64 :=
  Rect.unit (s := S64x24x64) ![0, k, 0] S64x1x64.size (inb_lrow1 k hk)

/-- The outer product of sub-row `k` of the two input blocks. -/
def term1 (x0 x1 : Vec F S64x24x64 .f32) (k : Nat) (hk : k < 24 := by decide) : FVec F S64x64x64 .f32 :=
  outer (View.ld x0 (lrow1 k hk)) (View.ld x1 (lrow1 k hk))

/-- Row `i` of the output block: the sum over `m < 3` of the outer products of sub-rows `3 i + m`, from zero, in order,
    times the scalar. -/
def piece1 (x0 x1 : Vec F S64x24x64 .f32) (i : Nat) (hi : i < 8 := by decide) : FVec F S64x1x64x64 .f32 :=
  scaled (addf (addf (addf (zacc) (term1 x0 x1 (3 * i + 0) (by omega))) (term1 x0 x1 (3 * i + 1) (by omega))) (term1 x0 x1 (3 * i + 2) (by omega))) 0x3F13CD3A#32

/-- The output block after the body: its eight stores, last first. -/
def out1 (x0 x1 : Vec F S64x24x64 .f32) : Vec F S64x8x64x64 .f32 :=
  View.canon [⟨srow 7, piece1 x0 x1 7⟩, ⟨srow 6, piece1 x0 x1 6⟩, ⟨srow 5, piece1 x0 x1 5⟩, ⟨srow 4, piece1 x0 x1 4⟩,
    ⟨srow 3, piece1 x0 x1 3⟩, ⟨srow 2, piece1 x0 x1 2⟩, ⟨srow 1, piece1 x0 x1 1⟩, ⟨srow 0, piece1 x0 x1 0⟩]

/-! ## The body's triple -/

set_option maxHeartbeats 1000000 in
/-- The body on whole staging memrefs — the inputs' at contents `x0`, `x1`, the output's at anything — runs to the
    continuation with the inputs' as they were and the output's at `out1 x0 x1`: the symbolic run leaves the output's
    buffer as eight writes whose values are, once their names are unfolded, the eight rows above. -/
theorem sound_kernel1 (c : Dev nD) (E : Set ℕ) (i : grid1.Coords)
    (arg1 : Memref sig .tc .vmem S64x24x64 .f32) (harg1 : arg1.IsWhole) (arg2 : Memref sig .tc .vmem S64x24x64 .f32) (harg2 : arg2.IsWhole)
    (arg3 : Memref sig .tc .vmem S64x8x64x64 .f32) (harg3 : arg3.IsWhole)
    (x0 x1 : Vec F S64x24x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rows _ _ _ _ _ _ _ _)

section Region

variable (V : (c : Dev nD) → (b : Ref sig .tc) → Buf (Elt F) ((c : Thread nD τ).loc b))

/-! ## The pipeline's proof data -/

/-- The proof data of pipeline 1 on core `c`: the arrays as the region finds them; after the body at point `t` each input's
    buffer at its block and the output's at `out1` of the input blocks; the invariant the plain one (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Frame

end
-- ==== Proof.Bits.Region2.lean ====
/-
  Kernel body 2 of the program (the rows of the two inputs that belong to the irreducible representation of
  dimension d = 5): what it leaves in its output block, and that it runs. At grid point `t` the body is handed
  block `t` of each input — rows `[64 t, 64 t + 64)`, all 40 sub-rows, all 64 channels — and fills the output block
  `[64, 8, 64, 64]` row by row: row `i` is `(Σ_{m < 5} x0[n, 5 i + m, u] · x1[n, 5 i + m, v]) · s`, the sum taken from zero in
  the order of `m`, `s` the scalar whose word is `0x3EE4F92E#32`. `out2` states that as the eight stores' values over the
  eight rows; `sound_kernel2` runs the body against it; `dat2` and `body_obligation2` are what the pipeline's
  launch theorem asks of a body (the input blocks stay in their staging buffers, the output's buffer ends at `out2`
  of them, nothing else is touched).
-/
import proofs.«102490_j7232724927058_2_alg».proof.Proof.Gen.Kernel.Launch
import proofs.«102490_j7232724927058_2_alg».proof.Proof.Gen.Kernel.Skeleton
import proofs.«102490_j7232724927058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Bits.Pieces
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not, for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region

/-! ## What the body stores -/

theorem inb_lrow2 (k : Nat) (hk : k < 40) : ∀ a, (![0, k, 0] : Fin 3 → Nat) a + S64x1x64.size a ≤ S64x40x64.size a := by
  intro a; fin_cases a <;> simp <;> omega

/-- Sub-row `k` of an input block `[64, 40, 64]`. -/
abbrev lrow2 (k : Nat) (hk : k < 40 := by decide) : Rect S64x40x64 :=
  Rect.unit (s := S64x40x64) ![0, k, 0] S64x1x64.size (inb_lrow2 k hk)

/-- The outer product of sub-row `k` of the two input blocks. -/
def term2 (x0 x1 : Vec F S64x40x64 .f32) (k : Nat) (hk : k < 40 := by decide) : FVec F S64x64x64 .f32 :=
  outer (View.ld x0 (lrow2 k hk)) (View.ld x1 (lrow2 k hk))

/-- Row `i` of the output block: the sum over `m < 5` of the outer products of sub-rows `5 i + m`, from zero, in order,
    times the scalar. -/
def piece2 (x0 x1 : Vec F S64x40x64 .f32) (i : Nat) (hi : i < 8 := by decide) : FVec F S64x1x64x64 .f32 :=
  scaled (addf (addf (addf (addf (addf (zacc) (term2 x0 x1 (5 * i + 0) (by omega))) (term2 x0 x1 (5 * i + 1) (by omega))) (term2 x0 x1 (5 * i + 2) (by omega))) (term2 x0 x1 (5 * i + 3) (by omega))) (term2 x0 x1 (5 * i + 4) (by omega))) 0x3EE4F92E#32

/-- The output block after the body: its eight stores, last first. -/
def out2 (x0 x1 : Vec F S64x40x64 .f32) : Vec F S64x8x64x64 .f32 :=
  View.canon [⟨srow 7, piece2 x0 x1 7⟩, ⟨srow 6, piece2 x0 x1 6⟩, ⟨srow 5, piece2 x0 x1 5⟩, ⟨srow 4, piece2 x0 x1 4⟩,
    ⟨srow 3, piece2 x0 x1 3⟩, ⟨srow 2, piece2 x0 x1 2⟩, ⟨srow 1, piece2 x0 x1 1⟩, ⟨srow 0, piece2 x0 x1 0⟩]

/-! ## The body's triple -/

set_option maxHeartbeats 1000000 in
/-- The body on whole staging memrefs — the inputs' at contents `x0`, `x1`, the output's at anything — runs to the
    continuation with the inputs' as they were and the output's at `out2 x0 x1`: the symbolic run leaves the output's
    buffer as eight writes whose values are, once their names are unfolded, the eight rows above. -/
theorem sound_kernel2 (c : Dev nD) (E : Set ℕ) (i : grid2.Coords)
    (arg1 : Memref sig .tc .vmem S64x40x64 .f32) (harg1 : arg1.IsWhole) (arg2 : Memref sig .tc .vmem S64x40x64 .f32) (harg2 : arg2.IsWhole)
    (arg3 : Memref sig .tc .vmem S64x8x64x64 .f32) (harg3 : arg3.IsWhole)
    (x0 x1 : Vec F S64x40x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rows _ _ _ _ _ _ _ _)

section Region

variable (V : (c : Dev nD) → (b : Ref sig .tc) → Buf (Elt F) ((c : Thread nD τ).loc b))

/-! ## The pipeline's proof data -/

/-- The proof data of pipeline 2 on core `c`: the arrays as the region finds them; after the body at point `t` each input's
    buffer at its block and the output's at `out2` of the input blocks; the invariant the plain one (the scoped rest and the
    generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.Kernel.Frame

end
-- ==== Proof.Bits.Region3.lean ====
/-
  Kernel body 3 of the program (the rows of the two inputs that belong to the irreducible representation of
  dimension d = 7): what it leaves in its output block, and that it runs. At grid point `t` the body is handed
  block `t` of each input — rows `[64 t, 64 t + 64)`, all 56 sub-rows, all 64 channels — and fills the output block
  `[64, 8, 64, 64]` row by row: row `i` is `(Σ_{m < 7} x0[n, 7 i + m, u] · x1[n, 7 i + m, v]) · s`, the sum taken from zero in
  the order of `m`, `s` the scalar whose word is `0x3EC1848F#32`. `out3` states that as the eight stores' values over the
  eight rows; `sound_kernel3` runs the body against it; `dat3` and `body_obligation3` are what the pipeline's
  launch theorem asks of a body (the input blocks stay in their staging buffers, the output's buffer ends at `out3`
  of them, nothing else is touched).
-/
import proofs.«102490_j7232724927058_2_alg».proof.Proof.Gen.Kernel.Launch
import proofs.«102490_j7232724927058_2_alg».proof.Proof.Gen.Kernel.Skeleton
import proofs.«102490_j7232724927058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Bits.Pieces
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not, for any proof data whose
    array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Region

/-! ## What the body stores -/

theorem inb_lrow3 (k : Nat) (hk : k < 56) : ∀ a, (![0, k, 0] : Fin 3 → Nat) a + S64x1x64.size a ≤ S64x56x64.size a := by
  intro a; fin_cases a <;> simp <;> omega

/-- Sub-row `k` of an input block `[64, 56, 64]`. -/
abbrev lrow3 (k : Nat) (hk : k < 56 := by decide) : Rect S64x56x64 :=
  Rect.unit (s := S64x56x64) ![0, k, 0] S64x1x64.size (inb_lrow3 k hk)

/-- The outer product of sub-row `k` of the two input blocks. -/
def term3 (x0 x1 : Vec F S64x56x64 .f32) (k : Nat) (hk : k < 56 := by decide) : FVec F S64x64x64 .f32 :=
  outer (View.ld x0 (lrow3 k hk)) (View.ld x1 (lrow3 k hk))

/-- Row `i` of the output block: the sum over `m < 7` of the outer products of sub-rows `7 i + m`, from zero, in order,
    times the scalar. -/
def piece3 (x0 x1 : Vec F S64x56x64 .f32) (i : Nat) (hi : i < 8 := by decide) : FVec F S64x1x64x64 .f32 :=
  scaled (addf (addf (addf (addf (addf (addf (addf (zacc) (term3 x0 x1 (7 * i + 0) (by omega))) (term3 x0 x1 (7 * i + 1) (by omega))) (term3 x0 x1 (7 * i + 2) (by omega))) (term3 x0 x1 (7 * i + 3) (by omega))) (term3 x0 x1 (7 * i + 4) (by omega))) (term3 x0 x1 (7 * i + 5) (by omega))) (term3 x0 x1 (7 * i + 6) (by omega))) 0x3EC1848F#32

/-- The output block after the body: its eight stores, last first. -/
def out3 (x0 x1 : Vec F S64x56x64 .f32) : Vec F S64x8x64x64 .f32 :=
  View.canon [⟨srow 7, piece3 x0 x1 7⟩, ⟨srow 6, piece3 x0 x1 6⟩, ⟨srow 5, piece3 x0 x1 5⟩, ⟨srow 4, piece3 x0 x1 4⟩,
    ⟨srow 3, piece3 x0 x1 3⟩, ⟨srow 2, piece3 x0 x1 2⟩, ⟨srow 1, piece3 x0 x1 1⟩, ⟨srow 0, piece3 x0 x1 0⟩]

/-! ## The body's triple -/

set_option maxHeartbeats 1000000 in
/-- The body on whole staging memrefs — the inputs' at contents `x0`, `x1`, the output's at anything — runs to the
    continuation with the inputs' as they were and the output's at `out3 x0 x1`: the symbolic run leaves the output's
    buffer as eight writes whose values are, once their names are unfolded, the eight rows above. -/
theorem sound_kernel3 (c : Dev nD) (E : Set ℕ) (i : grid3.Coords)
    (arg1 : Memref sig .tc .vmem S64x56x64 .f32) (harg1 : arg1.IsWhole) (arg2 : Memref sig .tc .vmem S64x56x64 .f32) (harg2 : arg2.IsWhole)
    (arg3 : Memref sig .tc .vmem S64x8x64x64 .f32) (harg3 : arg3.IsWhole)
    (x0 x1 : Vec F S64x56x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rows _ _ _ _ _ _ _ _)

section Region

variable (V : (c : Dev nD) → (b : Ref sig .tc) → Buf (Elt F) ((c : Thread nD τ).loc b))

/-! ## The pipeline's proof data -/

/-- The proof data of pipeline 3 on core `c`: the arrays as the region finds them; after the body at point `t` each input's
    buffer at its block and the output's at `out3` of the input blocks; the invariant the plain one (the scoped rest and the
    generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.Kernel.Frame

end
-- ==== Proof.Bits.Run.lean ====
/-
  The whole run of the program, at any reading of its floats. @main is nine items in a row: four kernel regions, each
  after a short stretch of host operations that slices its two operands out of the arguments, and a last host
  operation that concatenates the four regions' results. Between two items a core's unscoped buffers hold known
  contents: `W0` at launch, `W(2K+1)` after the slices for region K, `W(2K+2)` after region K (its output array at what the
  pipeline's write-backs leave, everything else as before), `W9` after the concatenation. Each region is entered and
  left over the state "every unscoped buffer at the boundary's contents, the generator register at some state,
  nothing owed", using its body obligation; the launch theorem for a list of host stretches and regions then gives:
  every weakly fair execution terminates, nothing faults, and every unscoped buffer ends at `W9` (`run_all`).
-/
import proofs.«102490_j7232724927058_2_alg».proof.Proof.Gen.Kernel.Launch
import proofs.«102490_j7232724927058_2_alg».proof.Proof.Gen.Kernel.Skeleton
import proofs.«102490_j7232724927058_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Gen.Kernel.Regions
import proofs.«102490_j7232724927058_2_alg».proof.Proof.Bits.Region0
import proofs.«102490_j7232724927058_2_alg».proof.Proof.Bits.Region1
import proofs.«102490_j7232724927058_2_alg».proof.Proof.Bits.Region2
import proofs.«102490_j7232724927058_2_alg».proof.Proof.Bits.Region3
set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs folded),
    every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`, the concatenation: the contents the run ends with. -/
abbrev W9 : Dev nD → Valuation τ sig (Elt F) := fun c => StableHlo.after hostOps4 (W8 m ρ c)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)
/-- A stretch of host operations as an item: from the contents `W` to `StableHlo.after ops (W c)`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W9`, the generator register at some state. -/
abbrev Tₙ (c : Dev nD) : sProp 𝕄 := iprop(StableHlo.held (c : Thread nD τ) (Pipeline.ucRefs τ sig) (W9 m ρ c) ∗ ∃ r, prngReg c r)

/-! ## The regions as items -/

-- a library lemma stated over the pinned configuration unifies with the printed one only when unification may unfold
-- plain definitions in a metavariable's type
set_option backward.isDefEq.respectTransparency.types false in
/-- Region 0 over the thread state: entered with every unscoped buffer at `W1`, left with them at `W2`. Its arrays are split
    out of the unscoped buffers and put back at what the write-backs leave; the generator register goes into the plain
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its arrays are split
    out of the unscoped buffers and put back at what the write-backs leave; the generator register goes into the plain
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its arrays are split
    out of the unscoped buffers and put back at what the write-backs leave; the generator register goes into the plain
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at `W7`, left with them at `W8`. Its arrays are split
    out of the unscoped buffers and put back at what the write-backs leave; the generator register goes into the plain
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the items. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has every unscoped buffer of every core at `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-! ## Reading the last contents back: the arguments -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h
theorem W9_of (c : Dev nD) (r : Ref sig .tc) (h : r ∉ hostOps4_W) : W9 m ρ c r = W8 m ρ c r :=
  StableHlo.after_of_writes_sub hostOps4 _ hostOps4_writes h

/-- No host operation writes an argument and no region has it among its arrays (a region reads a slice of it): the last
    contents of an argument's buffer are the launch memory's. -/
theorem W9_main_arg0 (c : Dev nD) : W9 m ρ c main_arg0 = m ((c : Thread nD τ).loc main_arg0) :=
  (W9_of m ρ c main_arg0 (by decide)).trans <| (W8_of_ne m ρ c main_arg0 (by decide)).trans <| (W7_of m ρ c main_arg0 (by decide)).trans <|
  (W6_of_ne m ρ c main_arg0 (by decide)).trans <| (W5_of m ρ c main_arg0 (by decide)).trans <| (W4_of_ne m ρ c main_arg0 (by decide)).trans <|
  (W3_of m ρ c main_arg0 (by decide)).trans <| (W2_of_ne m ρ c main_arg0 (by decide)).trans <| (W1_of m ρ c main_arg0 (by decide)).trans rfl
theorem W9_main_arg1 (c : Dev nD) : W9 m ρ c main_arg1 = m ((c : Thread nD τ).loc main_arg1) :=
  (W9_of m ρ c main_arg1 (by decide)).trans <| (W8_of_ne m ρ c main_arg1 (by decide)).trans <| (W7_of m ρ c main_arg1 (by decide)).trans <|
  (W6_of_ne m ρ c main_arg1 (by decide)).trans <| (W5_of m ρ c main_arg1 (by decide)).trans <| (W4_of_ne m ρ c main_arg1 (by decide)).trans <|
  (W3_of m ρ c main_arg1 (by decide)).trans <| (W2_of_ne m ρ c main_arg1 (by decide)).trans <| (W1_of m ρ c main_arg1 (by decide)).trans rfl

/-- THE FRAME: every weakly fair execution terminates, nothing faults, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W9_main_arg0 m ρ c), (h c _ (mem_uc main_arg1 (by decide))).trans (W9_main_arg1 m ρ c)⟩) (run_all m ρ)

end Cert.Kernel.Frame

end
-- ==== Proof.Ideal.Pieces.lean ====
/-
  What one store of a kernel body writes, as a term of the two input blocks. Every body of this program does the
  same thing eight times: for the multiplicity index `i` it adds up, from zero and in order, the outer products
  `a_m[n, u] · b_m[n, v]` of the rows `k = d·i + m` (`m < d`) of its two input blocks, multiplies the sum by one
  scalar, and stores the `[64, 1, 64, 64]` result as row `i` of the output block. Here are the pieces common to the
  four bodies: the outer product of two rows, the zero the sum starts from, the scaling and recast of the sum, the
  eight rows of the output block as rectangles, and that those rows cover the block.
-/
import proofs.«102490_j7232724927058_2_alg».proof.Proof.Gen.KernelIdeal.Launch
import proofs.«102490_j7232724927058_2_alg».proof.Proof.Gen.KernelIdeal.Skeleton
import proofs.«102490_j7232724927058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The outer product of two `[64, 1, 64]` rows over the channel axes: at `(n, u, v)` it is `a[n, 0, u] · b[n, 0, v]`
    (the first row recast to `[64, 64, 1]`, the second kept `[64, 1, 64]`, both broadcast to `[64, 64, 64]`). -/
def outer (a b : Vec F S64x1x64 .f32) : FVec F S64x64x64 .f32 :=
  mulf (broadcastTo S64x64x64 (shapeCast S64x64x1 (shapeCast S64x64 a shapeCasts_S64x1x64_S64x64) shapeCasts_S64x64_S64x64x1) broadcasts_S64x64x1_S64x64x64)
    (broadcastTo S64x64x64 (shapeCast S64x1x64 (shapeCast S64x64 b shapeCasts_S64x1x64_S64x64) shapeCasts_S64x64_S64x1x64) broadcasts_S64x1x64_S64x64x64)

/-- The sum starts from zero. -/
def zacc : FVec F S64x64x64 .f32 := broadcast S64x64x64 (Scalar.ofBits .f32 0x00000000#32)

/-- The finished sum times the scalar whose word is `w`, as one row `[64, 1, 64, 64]` of the output block. -/
def scaled (acc : FVec F S64x64x64 .f32) (w : BitVec 32) : FVec F S64x1x64x64 .f32 :=
  shapeCast S64x1x64x64 (mulf acc (broadcast S64x64x64 (Scalar.ofBits .f32 w))) shapeCasts_S64x64x64_S64x1x64x64

theorem inb_srow (i : Nat) (hi : i < 8) : ∀ a, (![0, i, 0, 0] : Fin 4 → Nat) a + S64x1x64x64.size a ≤ S64x8x64x64.size a := by
  intro a; fin_cases a <;> simp <;> omega

/-- Row `i` of the `[64, 8, 64, 64]` output block. -/
abbrev srow (i : Nat) (hi : i < 8 := by decide) : Rect S64x8x64x64 :=
  Rect.unit (s := S64x8x64x64) ![0, i, 0, 0] S64x1x64x64.size (inb_srow i hi)

/-- The eight rows tile the output block, so eight stores through them, whatever they store, cover it. -/
theorem cover_rows (p0 : (srow 0).shape.Idx → Elt F .f32) (p1 : (srow 1).shape.Idx → Elt F .f32) (p2 : (srow 2).shape.Idx → Elt F .f32)
    (p3 : (srow 3).shape.Idx → Elt F .f32) (p4 : (srow 4).shape.Idx → Elt F .f32) (p5 : (srow 5).shape.Idx → Elt F .f32)
    (p6 : (srow 6).shape.Idx → Elt F .f32) (p7 : (srow 7).shape.Idx → Elt F .f32) (y : S64x8x64x64.Idx) :
    ∃ pc ∈ ([⟨srow 7, p7⟩, ⟨srow 6, p6⟩, ⟨srow 5, p5⟩, ⟨srow 4, p4⟩, ⟨srow 3, p3⟩, ⟨srow 2, p2⟩, ⟨srow 1, p1⟩, ⟨srow 0, p0⟩] : List (View.Piece (Elt F) S64x8x64x64 .f32)), y ∈ pc.1.set :=
  View.cover_of_tiled (s := S64x8x64x64) [⟨srow 7, p7⟩, ⟨srow 6, p6⟩, ⟨srow 5, p5⟩, ⟨srow 4, p4⟩, ⟨srow 3, p3⟩, ⟨srow 2, p2⟩, ⟨srow 1, p1⟩, ⟨srow 0, p0⟩]
    (![64, 1, 64, 64] : Fin 4 → Nat) (by rfl) y

end Cert.KernelIdeal.Frame

end
-- ==== Proof.Ideal.Region0.lean ====
/-
  Kernel body 0 of the program (the rows of the two inputs that belong to the irreducible representation of
  dimension d = 1): what it leaves in its output block, and that it runs. At grid point `t` the body is handed
  block `t` of each input — rows `[64 t, 64 t + 64)`, all 8 sub-rows, all 64 channels — and fills the output block
  `[64, 8, 64, 64]` row by row: row `i` is `(Σ_{m < 1} x0[n, 1 i + m, u] · x1[n, 1 i + m, v]) · s`, the sum taken from zero in
  the order of `m`, `s` the scalar whose word is `0x3F800000#32`. `out0` states that as the eight stores' values over the
  eight rows; `sound_kernel0` runs the body against it; `dat0` and `body_obligation0` are what the pipeline's
  launch theorem asks of a body (the input blocks stay in their staging buffers, the output's buffer ends at `out0`
  of them, nothing else is touched).
-/
import proofs.«102490_j7232724927058_2_alg».proof.Proof.Gen.KernelIdeal.Launch
import proofs.«102490_j7232724927058_2_alg».proof.Proof.Gen.KernelIdeal.Skeleton
import proofs.«102490_j7232724927058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Ideal.Pieces
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not, for any proof data whose
    array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

/-! ## What the body stores -/

theorem inb_lrow0 (k : Nat) (hk : k < 8) : ∀ a, (![0, k, 0] : Fin 3 → Nat) a + S64x1x64.size a ≤ S64x8x64.size a := by
  intro a; fin_cases a <;> simp <;> omega

/-- Sub-row `k` of an input block `[64, 8, 64]`. -/
abbrev lrow0 (k : Nat) (hk : k < 8 := by decide) : Rect S64x8x64 :=
  Rect.unit (s := S64x8x64) ![0, k, 0] S64x1x64.size (inb_lrow0 k hk)

/-- The outer product of sub-row `k` of the two input blocks. -/
def term0 (x0 x1 : Vec F S64x8x64 .f32) (k : Nat) (hk : k < 8 := by decide) : FVec F S64x64x64 .f32 :=
  outer (View.ld x0 (lrow0 k hk)) (View.ld x1 (lrow0 k hk))

/-- Row `i` of the output block: the sum over `m < 1` of the outer products of sub-rows `1 i + m`, from zero, in order,
    times the scalar. -/
def piece0 (x0 x1 : Vec F S64x8x64 .f32) (i : Nat) (hi : i < 8 := by decide) : FVec F S64x1x64x64 .f32 :=
  scaled (addf (zacc) (term0 x0 x1 (1 * i + 0) (by omega))) 0x3F800000#32

/-- The output block after the body: its eight stores, last first. -/
def out0 (x0 x1 : Vec F S64x8x64 .f32) : Vec F S64x8x64x64 .f32 :=
  View.canon [⟨srow 7, piece0 x0 x1 7⟩, ⟨srow 6, piece0 x0 x1 6⟩, ⟨srow 5, piece0 x0 x1 5⟩, ⟨srow 4, piece0 x0 x1 4⟩,
    ⟨srow 3, piece0 x0 x1 3⟩, ⟨srow 2, piece0 x0 x1 2⟩, ⟨srow 1, piece0 x0 x1 1⟩, ⟨srow 0, piece0 x0 x1 0⟩]

/-! ## The body's triple -/

set_option maxHeartbeats 1000000 in
/-- The body on whole staging memrefs — the inputs' at contents `x0`, `x1`, the output's at anything — runs to the
    continuation with the inputs' as they were and the output's at `out0 x0 x1`: the symbolic run leaves the output's
    buffer as eight writes whose values are, once their names are unfolded, the eight rows above. -/
theorem sound_kernel0 (c : Dev nD) (E : Set ℕ) (i : grid0.Coords)
    (arg1 : Memref sig .tc .vmem S64x8x64 .f32) (harg1 : arg1.IsWhole) (arg2 : Memref sig .tc .vmem S64x8x64 .f32) (harg2 : arg2.IsWhole)
    (arg3 : Memref sig .tc .vmem S64x8x64x64 .f32) (harg3 : arg3.IsWhole)
    (x0 x1 : Vec F S64x8x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rows _ _ _ _ _ _ _ _)

section Region

variable (V : (c : Dev nD) → (b : Ref sig .tc) → Buf (Elt F) ((c : Thread nD τ).loc b))

/-! ## The pipeline's proof data -/

/-- The proof data of pipeline 0 on core `c`: the arrays as the region finds them; after the body at point `t` each input's
    buffer at its block and the output's at `out0` of the input blocks; the invariant the plain one (the scoped rest and the
    generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.KernelIdeal.Frame

end
-- ==== Proof.Ideal.Region1.lean ====
/-
  Kernel body 1 of the program (the rows of the two inputs that belong to the irreducible representation of
  dimension d = 3): what it leaves in its output block, and that it runs. At grid point `t` the body is handed
  block `t` of each input — rows `[64 t, 64 t + 64)`, all 24 sub-rows, all 64 channels — and fills the output block
  `[64, 8, 64, 64]` row by row: row `i` is `(Σ_{m < 3} x0[n, 3 i + m, u] · x1[n, 3 i + m, v]) · s`, the sum taken from zero in
  the order of `m`, `s` the scalar whose word is `0x3F13CD3A#32`. `out1` states that as the eight stores' values over the
  eight rows; `sound_kernel1` runs the body against it; `dat1` and `body_obligation1` are what the pipeline's
  launch theorem asks of a body (the input blocks stay in their staging buffers, the output's buffer ends at `out1`
  of them, nothing else is touched).
-/
import proofs.«102490_j7232724927058_2_alg».proof.Proof.Gen.KernelIdeal.Launch
import proofs.«102490_j7232724927058_2_alg».proof.Proof.Gen.KernelIdeal.Skeleton
import proofs.«102490_j7232724927058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Ideal.Pieces
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not, for any proof data whose
    array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region

/-! ## What the body stores -/

theorem inb_lrow1 (k : Nat) (hk : k < 24) : ∀ a, (![0, k, 0] : Fin 3 → Nat) a + S64x1x64.size a ≤ S64x24x64.size a := by
  intro a; fin_cases a <;> simp <;> omega

/-- Sub-row `k` of an input block `[64, 24, 64]`. -/
abbrev lrow1 (k : Nat) (hk : k < 24 := by decide) : Rect S64x24x64 :=
  Rect.unit (s := S64x24x64) ![0, k, 0] S64x1x64.size (inb_lrow1 k hk)

/-- The outer product of sub-row `k` of the two input blocks. -/
def term1 (x0 x1 : Vec F S64x24x64 .f32) (k : Nat) (hk : k < 24 := by decide) : FVec F S64x64x64 .f32 :=
  outer (View.ld x0 (lrow1 k hk)) (View.ld x1 (lrow1 k hk))

/-- Row `i` of the output block: the sum over `m < 3` of the outer products of sub-rows `3 i + m`, from zero, in order,
    times the scalar. -/
def piece1 (x0 x1 : Vec F S64x24x64 .f32) (i : Nat) (hi : i < 8 := by decide) : FVec F S64x1x64x64 .f32 :=
  scaled (addf (addf (addf (zacc) (term1 x0 x1 (3 * i + 0) (by omega))) (term1 x0 x1 (3 * i + 1) (by omega))) (term1 x0 x1 (3 * i + 2) (by omega))) 0x3F13CD3A#32

/-- The output block after the body: its eight stores, last first. -/
def out1 (x0 x1 : Vec F S64x24x64 .f32) : Vec F S64x8x64x64 .f32 :=
  View.canon [⟨srow 7, piece1 x0 x1 7⟩, ⟨srow 6, piece1 x0 x1 6⟩, ⟨srow 5, piece1 x0 x1 5⟩, ⟨srow 4, piece1 x0 x1 4⟩,
    ⟨srow 3, piece1 x0 x1 3⟩, ⟨srow 2, piece1 x0 x1 2⟩, ⟨srow 1, piece1 x0 x1 1⟩, ⟨srow 0, piece1 x0 x1 0⟩]

/-! ## The body's triple -/

set_option maxHeartbeats 1000000 in
/-- The body on whole staging memrefs — the inputs' at contents `x0`, `x1`, the output's at anything — runs to the
    continuation with the inputs' as they were and the output's at `out1 x0 x1`: the symbolic run leaves the output's
    buffer as eight writes whose values are, once their names are unfolded, the eight rows above. -/
theorem sound_kernel1 (c : Dev nD) (E : Set ℕ) (i : grid1.Coords)
    (arg1 : Memref sig .tc .vmem S64x24x64 .f32) (harg1 : arg1.IsWhole) (arg2 : Memref sig .tc .vmem S64x24x64 .f32) (harg2 : arg2.IsWhole)
    (arg3 : Memref sig .tc .vmem S64x8x64x64 .f32) (harg3 : arg3.IsWhole)
    (x0 x1 : Vec F S64x24x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1 x0 x1)) -∗ K ⟨⟩))
      ⊢ wp frame (wpE (defs₀ (F := F)) Variants.none c none) E (cc1_kernel i arg1 harg1 arg2 harg2 arg3 harg3) K := by
  simp only [cc1_kernel_eq_skeleton]; unfold cc1_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rows _ _ _ _ _ _ _ _)

section Region

variable (V : (c : Dev nD) → (b : Ref sig .tc) → Buf (Elt F) ((c : Thread nD τ).loc b))

/-! ## The pipeline's proof data -/

/-- The proof data of pipeline 1 on core `c`: the arrays as the region finds them; after the body at point `t` each input's
    buffer at its block and the output's at `out1` of the input blocks; the invariant the plain one (the scoped rest and the
    generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so `sound_kernel1` applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Frame

end
-- ==== Proof.Ideal.Region2.lean ====
/-
  Kernel body 2 of the program (the rows of the two inputs that belong to the irreducible representation of
  dimension d = 5): what it leaves in its output block, and that it runs. At grid point `t` the body is handed
  block `t` of each input — rows `[64 t, 64 t + 64)`, all 40 sub-rows, all 64 channels — and fills the output block
  `[64, 8, 64, 64]` row by row: row `i` is `(Σ_{m < 5} x0[n, 5 i + m, u] · x1[n, 5 i + m, v]) · s`, the sum taken from zero in
  the order of `m`, `s` the scalar whose word is `0x3EE4F92E#32`. `out2` states that as the eight stores' values over the
  eight rows; `sound_kernel2` runs the body against it; `dat2` and `body_obligation2` are what the pipeline's
  launch theorem asks of a body (the input blocks stay in their staging buffers, the output's buffer ends at `out2`
  of them, nothing else is touched).
-/
import proofs.«102490_j7232724927058_2_alg».proof.Proof.Gen.KernelIdeal.Launch
import proofs.«102490_j7232724927058_2_alg».proof.Proof.Gen.KernelIdeal.Skeleton
import proofs.«102490_j7232724927058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Ideal.Pieces
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not, for any proof data whose
    array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

end Region

/-! ## What the body stores -/

theorem inb_lrow2 (k : Nat) (hk : k < 40) : ∀ a, (![0, k, 0] : Fin 3 → Nat) a + S64x1x64.size a ≤ S64x40x64.size a := by
  intro a; fin_cases a <;> simp <;> omega

/-- Sub-row `k` of an input block `[64, 40, 64]`. -/
abbrev lrow2 (k : Nat) (hk : k < 40 := by decide) : Rect S64x40x64 :=
  Rect.unit (s := S64x40x64) ![0, k, 0] S64x1x64.size (inb_lrow2 k hk)

/-- The outer product of sub-row `k` of the two input blocks. -/
def term2 (x0 x1 : Vec F S64x40x64 .f32) (k : Nat) (hk : k < 40 := by decide) : FVec F S64x64x64 .f32 :=
  outer (View.ld x0 (lrow2 k hk)) (View.ld x1 (lrow2 k hk))

/-- Row `i` of the output block: the sum over `m < 5` of the outer products of sub-rows `5 i + m`, from zero, in order,
    times the scalar. -/
def piece2 (x0 x1 : Vec F S64x40x64 .f32) (i : Nat) (hi : i < 8 := by decide) : FVec F S64x1x64x64 .f32 :=
  scaled (addf (addf (addf (addf (addf (zacc) (term2 x0 x1 (5 * i + 0) (by omega))) (term2 x0 x1 (5 * i + 1) (by omega))) (term2 x0 x1 (5 * i + 2) (by omega))) (term2 x0 x1 (5 * i + 3) (by omega))) (term2 x0 x1 (5 * i + 4) (by omega))) 0x3EE4F92E#32

/-- The output block after the body: its eight stores, last first. -/
def out2 (x0 x1 : Vec F S64x40x64 .f32) : Vec F S64x8x64x64 .f32 :=
  View.canon [⟨srow 7, piece2 x0 x1 7⟩, ⟨srow 6, piece2 x0 x1 6⟩, ⟨srow 5, piece2 x0 x1 5⟩, ⟨srow 4, piece2 x0 x1 4⟩,
    ⟨srow 3, piece2 x0 x1 3⟩, ⟨srow 2, piece2 x0 x1 2⟩, ⟨srow 1, piece2 x0 x1 1⟩, ⟨srow 0, piece2 x0 x1 0⟩]

/-! ## The body's triple -/

set_option maxHeartbeats 1000000 in
/-- The body on whole staging memrefs — the inputs' at contents `x0`, `x1`, the output's at anything — runs to the
    continuation with the inputs' as they were and the output's at `out2 x0 x1`: the symbolic run leaves the output's
    buffer as eight writes whose values are, once their names are unfolded, the eight rows above. -/
theorem sound_kernel2 (c : Dev nD) (E : Set ℕ) (i : grid2.Coords)
    (arg1 : Memref sig .tc .vmem S64x40x64 .f32) (harg1 : arg1.IsWhole) (arg2 : Memref sig .tc .vmem S64x40x64 .f32) (harg2 : arg2.IsWhole)
    (arg3 : Memref sig .tc .vmem S64x8x64x64 .f32) (harg3 : arg3.IsWhole)
    (x0 x1 : Vec F S64x40x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2 x0 x1)) -∗ K ⟨⟩))
      ⊢ wp frame (wpE (defs₀ (F := F)) Variants.none c none) E (cc2_kernel i arg1 harg1 arg2 harg2 arg3 harg3) K := by
  simp only [cc2_kernel_eq_skeleton]; unfold cc2_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rows _ _ _ _ _ _ _ _)

section Region

variable (V : (c : Dev nD) → (b : Ref sig .tc) → Buf (Elt F) ((c : Thread nD τ).loc b))

/-! ## The pipeline's proof data -/

/-- The proof data of pipeline 2 on core `c`: the arrays as the region finds them; after the body at point `t` each input's
    buffer at its block and the output's at `out2` of the input blocks; the invariant the plain one (the scoped rest and the
    generator register, untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region

end Cert.KernelIdeal.Frame

end
-- ==== Proof.Ideal.Region3.lean ====
/-
  Kernel body 3 of the program (the rows of the two inputs that belong to the irreducible representation of
  dimension d = 7): what it leaves in its output block, and that it runs. At grid point `t` the body is handed
  block `t` of each input — rows `[64 t, 64 t + 64)`, all 56 sub-rows, all 64 channels — and fills the output block
  `[64, 8, 64, 64]` row by row: row `i` is `(Σ_{m < 7} x0[n, 7 i + m, u] · x1[n, 7 i + m, v]) · s`, the sum taken from zero in
  the order of `m`, `s` the scalar whose word is `0x3EC1848F#32`. `out3` states that as the eight stores' values over the
  eight rows; `sound_kernel3` runs the body against it; `dat3` and `body_obligation3` are what the pipeline's
  launch theorem asks of a body (the input blocks stay in their staging buffers, the output's buffer ends at `out3`
  of them, nothing else is touched).
-/
import proofs.«102490_j7232724927058_2_alg».proof.Proof.Gen.KernelIdeal.Launch
import proofs.«102490_j7232724927058_2_alg».proof.Proof.Gen.KernelIdeal.Skeleton
import proofs.«102490_j7232724927058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Ideal.Pieces
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not, for any proof data whose
    array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

end Region

/-! ## What the body stores -/

theorem inb_lrow3 (k : Nat) (hk : k < 56) : ∀ a, (![0, k, 0] : Fin 3 → Nat) a + S64x1x64.size a ≤ S64x56x64.size a := by
  intro a; fin_cases a <;> simp <;> omega

/-- Sub-row `k` of an input block `[64, 56, 64]`. -/
abbrev lrow3 (k : Nat) (hk : k < 56 := by decide) : Rect S64x56x64 :=
  Rect.unit (s := S64x56x64) ![0, k, 0] S64x1x64.size (inb_lrow3 k hk)

/-- The outer product of sub-row `k` of the two input blocks. -/
def term3 (x0 x1 : Vec F S64x56x64 .f32) (k : Nat) (hk : k < 56 := by decide) : FVec F S64x64x64 .f32 :=
  outer (View.ld x0 (lrow3 k hk)) (View.ld x1 (lrow3 k hk))

/-- Row `i` of the output block: the sum over `m < 7` of the outer products of sub-rows `7 i + m`, from zero, in order,
    times the scalar. -/
def piece3 (x0 x1 : Vec F S64x56x64 .f32) (i : Nat) (hi : i < 8 := by decide) : FVec F S64x1x64x64 .f32 :=
  scaled (addf (addf (addf (addf (addf (addf (addf (zacc) (term3 x0 x1 (7 * i + 0) (by omega))) (term3 x0 x1 (7 * i + 1) (by omega))) (term3 x0 x1 (7 * i + 2) (by omega))) (term3 x0 x1 (7 * i + 3) (by omega))) (term3 x0 x1 (7 * i + 4) (by omega))) (term3 x0 x1 (7 * i + 5) (by omega))) (term3 x0 x1 (7 * i + 6) (by omega))) 0x3EC1848F#32

/-- The output block after the body: its eight stores, last first. -/
def out3 (x0 x1 : Vec F S64x56x64 .f32) : Vec F S64x8x64x64 .f32 :=
  View.canon [⟨srow 7, piece3 x0 x1 7⟩, ⟨srow 6, piece3 x0 x1 6⟩, ⟨srow 5, piece3 x0 x1 5⟩, ⟨srow 4, piece3 x0 x1 4⟩,
    ⟨srow 3, piece3 x0 x1 3⟩, ⟨srow 2, piece3 x0 x1 2⟩, ⟨srow 1, piece3 x0 x1 1⟩, ⟨srow 0, piece3 x0 x1 0⟩]

/-! ## The body's triple -/

set_option maxHeartbeats 1000000 in
/-- The body on whole staging memrefs — the inputs' at contents `x0`, `x1`, the output's at anything — runs to the
    continuation with the inputs' as they were and the output's at `out3 x0 x1`: the symbolic run leaves the output's
    buffer as eight writes whose values are, once their names are unfolded, the eight rows above. -/
theorem sound_kernel3 (c : Dev nD) (E : Set ℕ) (i : grid3.Coords)
    (arg1 : Memref sig .tc .vmem S64x56x64 .f32) (harg1 : arg1.IsWhole) (arg2 : Memref sig .tc .vmem S64x56x64 .f32) (harg2 : arg2.IsWhole)
    (arg3 : Memref sig .tc .vmem S64x8x64x64 .f32) (harg3 : arg3.IsWhole)
    (x0 x1 : Vec F S64x56x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3 x0 x1)) -∗ K ⟨⟩))
      ⊢ wp frame (wpE (defs₀ (F := F)) Variants.none c none) E (cc3_kernel i arg1 harg1 arg2 harg2 arg3 harg3) K := by
  simp only [cc3_kernel_eq_skeleton]; unfold cc3_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_rows _ _ _ _ _ _ _ _)

section Region

variable (V : (c : Dev nD) → (b : Ref sig .tc) → Buf (Elt F) ((c : Thread nD τ).loc b))

/-! ## The pipeline's proof data -/

/-- The proof data of pipeline 3 on core `c`: the arrays as the region finds them; after the body at point `t` each input's
    buffer at its block and the output's at `out3` of the input blocks; the invariant the plain one (the scoped rest and the
    generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so `sound_kernel3` applies; the invariant and the core's
    dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region

end Cert.KernelIdeal.Frame

end
-- ==== Proof.Ideal.Run.lean ====
/-
  The whole run of the program, at any reading of its floats. @main is nine items in a row: four kernel regions, each
  after a short stretch of host operations that slices its two operands out of the arguments, and a last host
  operation that concatenates the four regions' results. Between two items a core's unscoped buffers hold known
  contents: `W0` at launch, `W(2K+1)` after the slices for region K, `W(2K+2)` after region K (its output array at what the
  pipeline's write-backs leave, everything else as before), `W9` after the concatenation. Each region is entered and
  left over the state "every unscoped buffer at the boundary's contents, the generator register at some state,
  nothing owed", using its body obligation; the launch theorem for a list of host stretches and regions then gives:
  every weakly fair execution terminates, nothing faults, and every unscoped buffer ends at `W9` (`run_all`).
-/
import proofs.«102490_j7232724927058_2_alg».proof.Proof.Gen.KernelIdeal.Launch
import proofs.«102490_j7232724927058_2_alg».proof.Proof.Gen.KernelIdeal.Skeleton
import proofs.«102490_j7232724927058_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«102490_j7232724927058_2_alg».proof.Proof.Gen.KernelIdeal.Regions
import proofs.«102490_j7232724927058_2_alg».proof.Proof.Ideal.Region0
import proofs.«102490_j7232724927058_2_alg».proof.Proof.Ideal.Region1
import proofs.«102490_j7232724927058_2_alg».proof.Proof.Ideal.Region2
import proofs.«102490_j7232724927058_2_alg».proof.Proof.Ideal.Region3
set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, the output's write-backs folded),
    every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`, the concatenation: the contents the run ends with. -/
abbrev W9 : Dev nD → Valuation τ sig (Elt F) := fun c => StableHlo.after hostOps4 (W8 m ρ c)

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state, and its dues, none. -/
abbrev R (c : Dev nD) : sProp 𝕄 := iprop((∃ r, prngReg c r) ∗ ∃ W, owes (c : Thread nD τ) (0 : CellTallies nD τ sig Unit) W)
/-- A stretch of host operations as an item: from the contents `W` to `StableHlo.after ops (W c)`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W9`, the generator register at some state. -/
abbrev Tₙ (c : Dev nD) : sProp 𝕄 := iprop(StableHlo.held (c : Thread nD τ) (Pipeline.ucRefs τ sig) (W9 m ρ c) ∗ ∃ r, prngReg c r)

/-! ## The regions as items -/

-- a library lemma stated over the pinned configuration unifies with the printed one only when unification may unfold
-- plain definitions in a metavariable's type
set_option backward.isDefEq.respectTransparency.types false in
/-- Region 0 over the thread state: entered with every unscoped buffer at `W1`, left with them at `W2`. Its arrays are split
    out of the unscoped buffers and put back at what the write-backs leave; the generator register goes into the plain
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at `W3`, left with them at `W4`. Its arrays are split
    out of the unscoped buffers and put back at what the write-backs leave; the generator register goes into the plain
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered with every unscoped buffer at `W5`, left with them at `W6`. Its arrays are split
    out of the unscoped buffers and put back at what the write-backs leave; the generator register goes into the plain
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered with every unscoped buffer at `W7`, left with them at `W8`. Its arrays are split
    out of the unscoped buffers and put back at what the write-backs leave; the generator register goes into the plain
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's nine items in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]
/-- @main is the run of the items. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final state has every unscoped buffer of every core at `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W9 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-! ## Reading the last contents back: the arguments -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h
theorem W9_of (c : Dev nD) (r : Ref sig .tc) (h : r ∉ hostOps4_W) : W9 m ρ c r = W8 m ρ c r :=
  StableHlo.after_of_writes_sub hostOps4 _ hostOps4_writes h

/-- No host operation writes an argument and no region has it among its arrays (a region reads a slice of it): the last
    contents of an argument's buffer are the launch memory's. -/
theorem W9_main_arg0 (c : Dev nD) : W9 m ρ c main_arg0 = m ((c : Thread nD τ).loc main_arg0) :=
  (W9_of m ρ c main_arg0 (by decide)).trans <| (W8_of_ne m ρ c main_arg0 (by decide)).trans <| (W7_of m ρ c main_arg0 (by decide)).trans <|
  (W6_of_ne m ρ c main_arg0 (by decide)).trans <| (W5_of m ρ c main_arg0 (by decide)).trans <| (W4_of_ne m ρ c main_arg0 (by decide)).trans <|
  (W3_of m ρ c main_arg0 (by decide)).trans <| (W2_of_ne m ρ c main_arg0 (by decide)).trans <| (W1_of m ρ c main_arg0 (by decide)).trans rfl
theorem W9_main_arg1 (c : Dev nD) : W9 m ρ c main_arg1 = m ((c : Thread nD τ).loc main_arg1) :=
  (W9_of m ρ c main_arg1 (by decide)).trans <| (W8_of_ne m ρ c main_arg1 (by decide)).trans <| (W7_of m ρ c main_arg1 (by decide)).trans <|
  (W6_of_ne m ρ c main_arg1 (by decide)).trans <| (W5_of m ρ c main_arg1 (by decide)).trans <| (W4_of_ne m ρ c main_arg1 (by decide)).trans <|
  (W3_of m ρ c main_arg1 (by decide)).trans <| (W2_of_ne m ρ c main_arg1 (by decide)).trans <| (W1_of m ρ c main_arg1 (by decide)).trans rfl

/-- THE FRAME: every weakly fair execution terminates, nothing faults, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W9_main_arg0 m ρ c), (h c _ (mem_uc main_arg1 (by decide))).trans (W9_main_arg1 m ρ c)⟩) (run_all m ρ)

end Cert.KernelIdeal.Frame

end
-- ==== Proof.Ideal.PieceValue.lean ====
/-
  The pieces of a body's arithmetic read at an index, over the extended reals: the outer product of two rows at
  `(n, u, v)` is `a[n, 0, u] · b[n, 0, v]`; the sum starts from 0; the scaled recast at `(n, 0, u, v)` is the sum at
  `(n, u, v)` times the scalar; row `i` of the output block sits at `(n, i, u, v)`.
-/
import proofs.«102490_j7232724927058_2_alg».proof.Proof.Ideal.Pieces
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.SL.Sem Idealize.ShloMosaic.ValueIdx
open Cert.KernelIdeal Cert.KernelIdeal.Gen

theorem outer_apply (a b : Vec Ideal S64x1x64 .f32) (n u v : Fin 64) :
    outer a b (ix3 n u v) = a (ix3 n (0 : Fin 1) u) * b (ix3 n (0 : Fin 1) v) := by
  unfold outer
  rw [mulf_apply]
  congr 1
  · rw [broadcastTo_apply _ broadcasts_S64x64x1_S64x64x64 (ix3 n u v) (ix3 n u (0 : Fin 1)) (fun a => by fin_cases a <;> rfl),
      shapeCast_apply _ shapeCasts_S64x64_S64x64x1 (ix3 n u (0 : Fin 1)) (ix2 n u) (by rw [Shape.rowMajor_val_two, Shape.rowMajor_val_three]; simp),
      shapeCast_apply _ shapeCasts_S64x1x64_S64x64 (ix2 n u) (ix3 n (0 : Fin 1) u) (by rw [Shape.rowMajor_val_three, Shape.rowMajor_val_two]; simp)]
  · rw [broadcastTo_apply _ broadcasts_S64x1x64_S64x64x64 (ix3 n u v) (ix3 n (0 : Fin 1) v) (fun a => by fin_cases a <;> rfl),
      shapeCast_apply _ shapeCasts_S64x64_S64x1x64 (ix3 n (0 : Fin 1) v) (ix2 n v) (by rw [Shape.rowMajor_val_two, Shape.rowMajor_val_three]; simp),
      shapeCast_apply _ shapeCasts_S64x1x64_S64x64 (ix2 n v) (ix3 n (0 : Fin 1) v) (by rw [Shape.rowMajor_val_three, Shape.rowMajor_val_two]; simp)]

theorem zacc_apply (j : S64x64x64.Idx) : zacc (F := Ideal) j = 0 := by
  unfold zacc; rw [broadcast_apply]; exact Ideal.ofBits_zero_f32

theorem scaled_apply (acc : FVec Ideal S64x64x64 .f32) (w : BitVec 32) (n u v : Fin 64) :
    scaled acc w (ix4 n (0 : Fin 1) u v) = acc (ix3 n u v) * Ideal.ofBits .f32 w := by
  unfold scaled
  rw [shapeCast_apply _ shapeCasts_S64x64x64_S64x1x64x64 (ix4 n (0 : Fin 1) u v) (ix3 n u v) (by rw [Shape.rowMajor_val_three, Shape.rowMajor_val_four]; simp),
    mulf_apply, broadcast_apply]
  rfl

/-- Row `i` of the output block, placed in the block. -/
theorem srow_emb (i : Nat) (hi : i < 8) (n : Fin 64) (z : Fin 1) (u v : Fin 64) :
    (srow i hi).emb (ix4 n z u v) = ix4 n (⟨i, hi⟩ : Fin 8) u v :=
  funext fun a => Fin.ext (by
    match a with
    | ⟨0, _⟩ => show 0 + 1 * n.val = n.val; omega
    | ⟨1, _⟩ => show i + 1 * z.val = i; have := z.isLt; omega
    | ⟨2, _⟩ => show 0 + 1 * u.val = u.val; omega
    | ⟨3, _⟩ => show 0 + 1 * v.val = v.val; omega)

end Cert.KernelIdeal.Frame

end
-- ==== Proof.Ideal.Value0.lean ====
/-
  Region 0 (sub-rows per multiplicity index: 1), valued over the extended reals. First the block: the eight rows the
  body stores are the rows of ONE function `block0` of the two input blocks — entry `(n, i, u, v)` is
  `(Σ_{m < 1} x0[n, 1 i + m, u] · x1[n, 1 i + m, v]) · s`; the body adds the 1 products up from zero in order, and a sum from zero in
  order is the sum. Then the array: grid point `t` handles rows `[64 t, 64 t + 64)` of every operand, so what it writes
  back is block `t` of the same formula `arr0` over the whole operand arrays; the 32 blocks cover the result array, which
  therefore ends at `arr0` of the operands as the region finds them (`final0`).
-/
import proofs.«102490_j7232724927058_2_alg».proof.Proof.Ideal.Region0
import proofs.«102490_j7232724927058_2_alg».proof.Proof.Ideal.PieceValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.SL.Sem Idealize.ShloMosaic.ValueIdx
open Cert.KernelIdeal Cert.KernelIdeal.Gen

/-! ## Body 0: what its stores leave, read at an index -/

/-- Sub-row `k` of an input block, placed in the block: row `n`, sub-row `k`, channel `u`. -/
theorem lrow0_idx (k : Nat) (hk : k < 8) (n u : Fin 64) :
    (lrow0 k hk).idx (ix3 n (0 : Fin 1) u) = ix3 n (⟨k, hk⟩ : Fin 8) u :=
  funext fun a => Fin.ext (by
    match a with
    | ⟨0, _⟩ => show 0 + 1 * n.val = n.val; omega
    | ⟨1, _⟩ => show k + 1 * (0 : Fin 1).val = k; simp
    | ⟨2, _⟩ => show 0 + 1 * u.val = u.val; omega)

/-- One term of the sum at `(n, u, v)`: `x0[n, k, u] · x1[n, k, v]`. -/
theorem term0_apply (x0 x1 : Vec Ideal S64x8x64 .f32) (k : Nat) (hk : k < 8) (n u v : Fin 64) :
    term0 x0 x1 k hk (ix3 n u v) = x0 (ix3 n (⟨k, hk⟩ : Fin 8) u) * x1 (ix3 n (⟨k, hk⟩ : Fin 8) v) := by
  unfold term0
  rw [outer_apply]
  show x0 ((lrow0 k hk).idx (ix3 n (0 : Fin 1) u)) * x1 ((lrow0 k hk).idx (ix3 n (0 : Fin 1) v)) = _
  rw [lrow0_idx, lrow0_idx]

/-- The output block's entry `(n, i, u, v)` as the body computes it: the sum over the 1 sub-rows of index `i`, times the scalar. -/
def g0 (x0 x1 : Vec Ideal S64x8x64 .f32) (n : Fin 64) (i : Fin 8) (u v : Fin 64) : EReal :=
  (∑ m : Fin 1, x0 (ix3 n (⟨1 * i.val + m.val, by have := i.isLt; have := m.isLt; omega⟩ : Fin 8) u)
      * x1 (ix3 n (⟨1 * i.val + m.val, by have := i.isLt; have := m.isLt; omega⟩ : Fin 8) v)) * Ideal.ofBits .f32 0x3F800000#32

/-- The output block as ONE function of the two input blocks. -/
def block0 (x0 x1 : Vec Ideal S64x8x64 .f32) : Vec Ideal S64x8x64x64 .f32 :=
  fun y => g0 x0 x1 (y 0) (y 1) (y 2) (y 3)

/-- Row `i` as stored is row `i` of that function: the sum from zero, in order, is the sum. -/
theorem piece0_apply (x0 x1 : Vec Ideal S64x8x64 .f32) (i : Nat) (hi : i < 8) (n u v : Fin 64) :
    piece0 x0 x1 i hi (ix4 n (0 : Fin 1) u v) = g0 x0 x1 n ⟨i, hi⟩ u v := by
  unfold piece0 g0
  rw [scaled_apply]
  simp only [addf_apply, zacc_apply, term0_apply, zero_add, Fin.sum_univ_one]
  rfl

theorem piece0_eq_block (x0 x1 : Vec Ideal S64x8x64 .f32) (i : Nat) (hi : i < 8) (x : (srow i hi).shape.Idx) :
    piece0 x0 x1 i hi x = block0 x0 x1 ((srow i hi).emb x) := by
  obtain ⟨n, z, u, v, rfl⟩ : ∃ (n : Fin 64) (z : Fin 1) (u v : Fin 64), x = ix4 n z u v := ⟨x 0, x 1, x 2, x 3, eq_ix4 x⟩
  obtain rfl : z = 0 := Subsingleton.elim _ _
  rw [srow_emb, piece0_apply]
  rfl

/-- THE BLOCK: after the body the output block is `block0` of the two input blocks. -/
theorem out0_eq (x0 x1 : Vec Ideal S64x8x64 .f32) : out0 x0 x1 = block0 x0 x1 := by
  funext y
  unfold out0
  refine View.canon_apply_of_pieces (block0 x0 x1) _ (fun p hp => ?_) y (cover_rows _ _ _ _ _ _ _ _ y)
  simp only [List.mem_cons, List.not_mem_nil, or_false] at hp
  rcases hp with rfl | rfl | rfl | rfl | rfl | rfl | rfl | rfl <;> exact piece0_eq_block x0 x1 _ (by decide)

/-! ## Region 0: from the blocks to the array -/

/-- The region's result array as ONE function of its two operand arrays: entry `(n, i, u, v)` is
    `(Σ_{m < 1} s0[n, 1 i + m, u] · s1[n, 1 i + m, v]) · s`. -/
def arr0 (s0 s1 : S2048x8x64.Idx → EReal) : S2048x8x64x64.Idx → EReal := fun j =>
  (∑ m : Fin 1, s0 (ix3 (j 0) (⟨1 * (j 1).val + m.val, by have h : (j 1).val < 8 := (j 1).isLt; have := m.isLt; omega⟩ : Fin 8) (j 2))
      * s1 (ix3 (j 0) (⟨1 * (j 1).val + m.val, by have h : (j 1).val < 8 := (j 1).isLt; have := m.isLt; omega⟩ : Fin 8) (j 3))) * Ideal.ofBits .f32 0x3F800000#32

/-- The printed index maps, decided over the grid: at point `t` every window is at block `t` of the leading axis and
    block 0 of the others. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

section Arr

variable (V : (c : Dev nD) → (b : Ref sig .tc) → Buf (Elt Ideal) ((c : Thread nD τ).loc b))

/-- The region's two operand arrays as the region finds them, as arrays of extended reals. -/
abbrev opA0 (c : Dev nD) : S2048x8x64.Idx → EReal := V c main_v0
abbrev opB0 (c : Dev nD) : S2048x8x64.Idx → EReal := V c main_v1

/-- WHAT POINT `t` WRITES BACK is block `t` of `arr0` of the operand arrays as the region finds them. -/
theorem flushed0_eq (c : Dev nD) (t : Fin cfg0.N) :
    (dat0 V c).flushed 2 t = ((cfg0.win 2).blk t).view.read (Elt Ideal) (arr0 (opA0 V c) (opB0 V c)) := by
  show (cfg0.win 2).cut (grid0.coords t) ((dat0 V c).after 2 t) = _
  rw [after0_2, out0_eq]
  obtain ⟨e00, e01, e02, e10, e11, e12, e20, e21, e22, e23⟩ := idx_facts0 t
  funext y
  show (∑ m : Fin 1, opA0 V c (((cfg0.win 0).blk t).view.emb (ix3 (y 0) (⟨1 * (y 1).val + m.val, _⟩ : Fin 8) (y 2)))
        * opB0 V c (((cfg0.win 1).blk t).view.emb (ix3 (y 0) (⟨1 * (y 1).val + m.val, _⟩ : Fin 8) (y 3)))) * Ideal.ofBits .f32 0x3F800000#32
      = arr0 (opA0 V c) (opB0 V c) (((cfg0.win 2).blk t).view.emb y)
  unfold arr0
  refine congrArg (· * Ideal.ofBits .f32 0x3F800000#32) (Finset.sum_congr rfl fun m _ => ?_)
  have h0 : ((cfg0.win 0).blk t).view.emb (ix3 (y 0) (⟨1 * (y 1).val + m.val, by have h : (y 1).val < 8 := (y 1).isLt; have := m.isLt; omega⟩ : Fin 8) (y 2))
      = ix3 ((((cfg0.win 2).blk t).view.emb y) 0) (⟨1 * ((((cfg0.win 2).blk t).view.emb y) 1).val + m.val, by have h : ((((cfg0.win 2).blk t).view.emb y) 1).val < 8 := ((((cfg0.win 2).blk t).view.emb y) 1).isLt; have := m.isLt; omega⟩ : Fin 8) ((((cfg0.win 2).blk t).view.emb y) 2) := by
    funext a; apply Fin.ext
    match a with
    | ⟨0, _⟩ => show win0_0.index t (0 : Fin 3) * 64 + 1 * (y 0).val = win0_2.index t (0 : Fin 4) * 64 + 1 * (y 0).val; omega
    | ⟨1, _⟩ => show win0_0.index t (1 : Fin 3) * 8 + 1 * (1 * (y 1).val + m.val) = 1 * (win0_2.index t (1 : Fin 4) * 8 + 1 * (y 1).val) + m.val; omega
    | ⟨2, _⟩ => show win0_0.index t (2 : Fin 3) * 64 + 1 * (y 2).val = win0_2.index t (2 : Fin 4) * 64 + 1 * (y 2).val; omega
  have h1 : ((cfg0.win 1).blk t).view.emb (ix3 (y 0) (⟨1 * (y 1).val + m.val, by have h : (y 1).val < 8 := (y 1).isLt; have := m.isLt; omega⟩ : Fin 8) (y 3))
      = ix3 ((((cfg0.win 2).blk t).view.emb y) 0) (⟨1 * ((((cfg0.win 2).blk t).view.emb y) 1).val + m.val, by have h : ((((cfg0.win 2).blk t).view.emb y) 1).val < 8 := ((((cfg0.win 2).blk t).view.emb y) 1).isLt; have := m.isLt; omega⟩ : Fin 8) ((((cfg0.win 2).blk t).view.emb y) 3) := by
    funext a; apply Fin.ext
    match a with
    | ⟨0, _⟩ => show win0_1.index t (0 : Fin 3) * 64 + 1 * (y 0).val = win0_2.index t (0 : Fin 4) * 64 + 1 * (y 0).val; omega
    | ⟨1, _⟩ => show win0_1.index t (1 : Fin 3) * 8 + 1 * (1 * (y 1).val + m.val) = 1 * (win0_2.index t (1 : Fin 4) * 8 + 1 * (y 1).val) + m.val; omega
    | ⟨2, _⟩ => show win0_1.index t (2 : Fin 3) * 64 + 1 * (y 3).val = win0_2.index t (3 : Fin 4) * 64 + 1 * (y 3).val; omega
  rw [h0, h1]
  rfl

/-- An index of the result array is in point `t`'s block iff each coordinate is in the block's range on its axis. -/
theorem mem_blk0 (t : Fin cfg0.N) (i : S2048x8x64x64.Idx) :
    i ∈ ((cfg0.win 2).blk t).view.set ↔ ∀ a : Fin 4, win0_2.index t a * S64x8x64x64.size a ≤ (i a).val ∧ (i a).val < win0_2.index t a * S64x8x64x64.size a + S64x8x64x64.size a := by
  show i ∈ ((View.whole main_v2).slice (win0_2.rect t)).set ↔ _
  rw [View.set_slice_whole, Rect.mem_set_unit]
  exact Iff.rfl

/-- Every index of the result array is in the block of the point `(its row) / 64`. -/
theorem cover0 (i : S2048x8x64x64.Idx) : ∃ t : Fin cfg0.N, (cfg0.win 2).flush t = true ∧ i ∈ ((cfg0.win 2).blk t).view.set := by
  have hi0 : (i 0).val < 2048 := (i 0).isLt
  have hi1 : (i 1).val < 8 := (i 1).isLt
  have hi2 : (i 2).val < 64 := (i 2).isLt
  have hi3 : (i 3).val < 64 := (i 3).isLt
  refine ⟨⟨(i 0).val / 64, by rw [show cfg0.N = 32 from N_0]; omega⟩, flush0_2 _, ?_⟩
  rw [mem_blk0]
  obtain ⟨-, -, -, -, -, -, e20, e21, e22, e23⟩ := idx_facts0 ⟨(i 0).val / 64, by rw [show cfg0.N = 32 from N_0]; omega⟩
  intro a
  match a with
  | ⟨0, _⟩ => show win0_2.index _ (0 : Fin 4) * 64 ≤ (i 0).val ∧ (i 0).val < win0_2.index _ (0 : Fin 4) * 64 + 64; rw [e20]; show (i 0).val / 64 * 64 ≤ (i 0).val ∧ (i 0).val < (i 0).val / 64 * 64 + 64; omega
  | ⟨1, _⟩ => show win0_2.index _ (1 : Fin 4) * 8 ≤ (i 1).val ∧ (i 1).val < win0_2.index _ (1 : Fin 4) * 8 + 8; rw [e21]; omega
  | ⟨2, _⟩ => show win0_2.index _ (2 : Fin 4) * 64 ≤ (i 2).val ∧ (i 2).val < win0_2.index _ (2 : Fin 4) * 64 + 64; rw [e22]; omega
  | ⟨3, _⟩ => show win0_2.index _ (3 : Fin 4) * 64 ≤ (i 3).val ∧ (i 3).val < win0_2.index _ (3 : Fin 4) * 64 + 64; rw [e23]; omega

/-- THE ARRAY after the region: `arr0` of the two operand arrays as the region finds them. -/
theorem final0 (c : Dev nD) : (dat0 V c).arrAt 2 cfg0.N = arr0 (opA0 V c) (opB0 V c) :=
  (dat0 V c).arrAt_eq_of_cover 2 _ (fun t _ => flushed0_eq V c t) (cover0)

end Arr

end Cert.KernelIdeal.Frame

end
-- ==== Proof.Ideal.Value1.lean ====
/-
  Region 1 (sub-rows per multiplicity index: 3), valued over the extended reals. First the block: the eight rows the
  body stores are the rows of ONE function `block1` of the two input blocks — entry `(n, i, u, v)` is
  `(Σ_{m < 3} x0[n, 3 i + m, u] · x1[n, 3 i + m, v]) · s`; the body adds the 3 products up from zero in order, and a sum from zero in
  order is the sum. Then the array: grid point `t` handles rows `[64 t, 64 t + 64)` of every operand, so what it writes
  back is block `t` of the same formula `arr1` over the whole operand arrays; the 32 blocks cover the result array, which
  therefore ends at `arr1` of the operands as the region finds them (`final1`).
-/
import proofs.«102490_j7232724927058_2_alg».proof.Proof.Ideal.Region1
import proofs.«102490_j7232724927058_2_alg».proof.Proof.Ideal.PieceValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.SL.Sem Idealize.ShloMosaic.ValueIdx
open Cert.KernelIdeal Cert.KernelIdeal.Gen

/-! ## Body 1: what its stores leave, read at an index -/

/-- Sub-row `k` of an input block, placed in the block: row `n`, sub-row `k`, channel `u`. -/
theorem lrow1_idx (k : Nat) (hk : k < 24) (n u : Fin 64) :
    (lrow1 k hk).idx (ix3 n (0 : Fin 1) u) = ix3 n (⟨k, hk⟩ : Fin 24) u :=
  funext fun a => Fin.ext (by
    match a with
    | ⟨0, _⟩ => show 0 + 1 * n.val = n.val; omega
    | ⟨1, _⟩ => show k + 1 * (0 : Fin 1).val = k; simp
    | ⟨2, _⟩ => show 0 + 1 * u.val = u.val; omega)

/-- One term of the sum at `(n, u, v)`: `x0[n, k, u] · x1[n, k, v]`. -/
theorem term1_apply (x0 x1 : Vec Ideal S64x24x64 .f32) (k : Nat) (hk : k < 24) (n u v : Fin 64) :
    term1 x0 x1 k hk (ix3 n u v) = x0 (ix3 n (⟨k, hk⟩ : Fin 24) u) * x1 (ix3 n (⟨k, hk⟩ : Fin 24) v) := by
  unfold term1
  rw [outer_apply]
  show x0 ((lrow1 k hk).idx (ix3 n (0 : Fin 1) u)) * x1 ((lrow1 k hk).idx (ix3 n (0 : Fin 1) v)) = _
  rw [lrow1_idx, lrow1_idx]

/-- The output block's entry `(n, i, u, v)` as the body computes it: the sum over the 3 sub-rows of index `i`, times the scalar. -/
def g1 (x0 x1 : Vec Ideal S64x24x64 .f32) (n : Fin 64) (i : Fin 8) (u v : Fin 64) : EReal :=
  (∑ m : Fin 3, x0 (ix3 n (⟨3 * i.val + m.val, by have := i.isLt; have := m.isLt; omega⟩ : Fin 24) u)
      * x1 (ix3 n (⟨3 * i.val + m.val, by have := i.isLt; have := m.isLt; omega⟩ : Fin 24) v)) * Ideal.ofBits .f32 0x3F13CD3A#32

/-- The output block as ONE function of the two input blocks. -/
def block1 (x0 x1 : Vec Ideal S64x24x64 .f32) : Vec Ideal S64x8x64x64 .f32 :=
  fun y => g1 x0 x1 (y 0) (y 1) (y 2) (y 3)

/-- Row `i` as stored is row `i` of that function: the sum from zero, in order, is the sum. -/
theorem piece1_apply (x0 x1 : Vec Ideal S64x24x64 .f32) (i : Nat) (hi : i < 8) (n u v : Fin 64) :
    piece1 x0 x1 i hi (ix4 n (0 : Fin 1) u v) = g1 x0 x1 n ⟨i, hi⟩ u v := by
  unfold piece1 g1
  rw [scaled_apply]
  simp only [addf_apply, zacc_apply, term1_apply, zero_add, Fin.sum_univ_three]
  rfl

theorem piece1_eq_block (x0 x1 : Vec Ideal S64x24x64 .f32) (i : Nat) (hi : i < 8) (x : (srow i hi).shape.Idx) :
    piece1 x0 x1 i hi x = block1 x0 x1 ((srow i hi).emb x) := by
  obtain ⟨n, z, u, v, rfl⟩ : ∃ (n : Fin 64) (z : Fin 1) (u v : Fin 64), x = ix4 n z u v := ⟨x 0, x 1, x 2, x 3, eq_ix4 x⟩
  obtain rfl : z = 0 := Subsingleton.elim _ _
  rw [srow_emb, piece1_apply]
  rfl

/-- THE BLOCK: after the body the output block is `block1` of the two input blocks. -/
theorem out1_eq (x0 x1 : Vec Ideal S64x24x64 .f32) : out1 x0 x1 = block1 x0 x1 := by
  funext y
  unfold out1
  refine View.canon_apply_of_pieces (block1 x0 x1) _ (fun p hp => ?_) y (cover_rows _ _ _ _ _ _ _ _ y)
  simp only [List.mem_cons, List.not_mem_nil, or_false] at hp
  rcases hp with rfl | rfl | rfl | rfl | rfl | rfl | rfl | rfl <;> exact piece1_eq_block x0 x1 _ (by decide)

/-! ## Region 1: from the blocks to the array -/

/-- The region's result array as ONE function of its two operand arrays: entry `(n, i, u, v)` is
    `(Σ_{m < 3} s0[n, 3 i + m, u] · s1[n, 3 i + m, v]) · s`. -/
def arr1 (s0 s1 : S2048x24x64.Idx → EReal) : S2048x8x64x64.Idx → EReal := fun j =>
  (∑ m : Fin 3, s0 (ix3 (j 0) (⟨3 * (j 1).val + m.val, by have h : (j 1).val < 8 := (j 1).isLt; have := m.isLt; omega⟩ : Fin 24) (j 2))
      * s1 (ix3 (j 0) (⟨3 * (j 1).val + m.val, by have h : (j 1).val < 8 := (j 1).isLt; have := m.isLt; omega⟩ : Fin 24) (j 3))) * Ideal.ofBits .f32 0x3F13CD3A#32

/-- The printed index maps, decided over the grid: at point `t` every window is at block `t` of the leading axis and
    block 0 of the others. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)

section Arr

variable (V : (c : Dev nD) → (b : Ref sig .tc) → Buf (Elt Ideal) ((c : Thread nD τ).loc b))

/-- The region's two operand arrays as the region finds them, as arrays of extended reals. -/
abbrev opA1 (c : Dev nD) : S2048x24x64.Idx → EReal := V c main_v3
abbrev opB1 (c : Dev nD) : S2048x24x64.Idx → EReal := V c main_v4

/-- WHAT POINT `t` WRITES BACK is block `t` of `arr1` of the operand arrays as the region finds them. -/
theorem flushed1_eq (c : Dev nD) (t : Fin cfg1.N) :
    (dat1 V c).flushed 2 t = ((cfg1.win 2).blk t).view.read (Elt Ideal) (arr1 (opA1 V c) (opB1 V c)) := by
  show (cfg1.win 2).cut (grid1.coords t) ((dat1 V c).after 2 t) = _
  rw [after1_2, out1_eq]
  obtain ⟨e00, e01, e02, e10, e11, e12, e20, e21, e22, e23⟩ := idx_facts1 t
  funext y
  show (∑ m : Fin 3, opA1 V c (((cfg1.win 0).blk t).view.emb (ix3 (y 0) (⟨3 * (y 1).val + m.val, _⟩ : Fin 24) (y 2)))
        * opB1 V c (((cfg1.win 1).blk t).view.emb (ix3 (y 0) (⟨3 * (y 1).val + m.val, _⟩ : Fin 24) (y 3)))) * Ideal.ofBits .f32 0x3F13CD3A#32
      = arr1 (opA1 V c) (opB1 V c) (((cfg1.win 2).blk t).view.emb y)
  unfold arr1
  refine congrArg (· * Ideal.ofBits .f32 0x3F13CD3A#32) (Finset.sum_congr rfl fun m _ => ?_)
  have h0 : ((cfg1.win 0).blk t).view.emb (ix3 (y 0) (⟨3 * (y 1).val + m.val, by have h : (y 1).val < 8 := (y 1).isLt; have := m.isLt; omega⟩ : Fin 24) (y 2))
      = ix3 ((((cfg1.win 2).blk t).view.emb y) 0) (⟨3 * ((((cfg1.win 2).blk t).view.emb y) 1).val + m.val, by have h : ((((cfg1.win 2).blk t).view.emb y) 1).val < 8 := ((((cfg1.win 2).blk t).view.emb y) 1).isLt; have := m.isLt; omega⟩ : Fin 24) ((((cfg1.win 2).blk t).view.emb y) 2) := by
    funext a; apply Fin.ext
    match a with
    | ⟨0, _⟩ => show win1_0.index t (0 : Fin 3) * 64 + 1 * (y 0).val = win1_2.index t (0 : Fin 4) * 64 + 1 * (y 0).val; omega
    | ⟨1, _⟩ => show win1_0.index t (1 : Fin 3) * 24 + 1 * (3 * (y 1).val + m.val) = 3 * (win1_2.index t (1 : Fin 4) * 8 + 1 * (y 1).val) + m.val; omega
    | ⟨2, _⟩ => show win1_0.index t (2 : Fin 3) * 64 + 1 * (y 2).val = win1_2.index t (2 : Fin 4) * 64 + 1 * (y 2).val; omega
  have h1 : ((cfg1.win 1).blk t).view.emb (ix3 (y 0) (⟨3 * (y 1).val + m.val, by have h : (y 1).val < 8 := (y 1).isLt; have := m.isLt; omega⟩ : Fin 24) (y 3))
      = ix3 ((((cfg1.win 2).blk t).view.emb y) 0) (⟨3 * ((((cfg1.win 2).blk t).view.emb y) 1).val + m.val, by have h : ((((cfg1.win 2).blk t).view.emb y) 1).val < 8 := ((((cfg1.win 2).blk t).view.emb y) 1).isLt; have := m.isLt; omega⟩ : Fin 24) ((((cfg1.win 2).blk t).view.emb y) 3) := by
    funext a; apply Fin.ext
    match a with
    | ⟨0, _⟩ => show win1_1.index t (0 : Fin 3) * 64 + 1 * (y 0).val = win1_2.index t (0 : Fin 4) * 64 + 1 * (y 0).val; omega
    | ⟨1, _⟩ => show win1_1.index t (1 : Fin 3) * 24 + 1 * (3 * (y 1).val + m.val) = 3 * (win1_2.index t (1 : Fin 4) * 8 + 1 * (y 1).val) + m.val; omega
    | ⟨2, _⟩ => show win1_1.index t (2 : Fin 3) * 64 + 1 * (y 3).val = win1_2.index t (3 : Fin 4) * 64 + 1 * (y 3).val; omega
  rw [h0, h1]
  rfl

/-- An index of the result array is in point `t`'s block iff each coordinate is in the block's range on its axis. -/
theorem mem_blk1 (t : Fin cfg1.N) (i : S2048x8x64x64.Idx) :
    i ∈ ((cfg1.win 2).blk t).view.set ↔ ∀ a : Fin 4, win1_2.index t a * S64x8x64x64.size a ≤ (i a).val ∧ (i a).val < win1_2.index t a * S64x8x64x64.size a + S64x8x64x64.size a := by
  show i ∈ ((View.whole main_v5).slice (win1_2.rect t)).set ↔ _
  rw [View.set_slice_whole, Rect.mem_set_unit]
  exact Iff.rfl

/-- Every index of the result array is in the block of the point `(its row) / 64`. -/
theorem cover1 (i : S2048x8x64x64.Idx) : ∃ t : Fin cfg1.N, (cfg1.win 2).flush t = true ∧ i ∈ ((cfg1.win 2).blk t).view.set := by
  have hi0 : (i 0).val < 2048 := (i 0).isLt
  have hi1 : (i 1).val < 8 := (i 1).isLt
  have hi2 : (i 2).val < 64 := (i 2).isLt
  have hi3 : (i 3).val < 64 := (i 3).isLt
  refine ⟨⟨(i 0).val / 64, by rw [show cfg1.N = 32 from N_1]; omega⟩, flush1_2 _, ?_⟩
  rw [mem_blk1]
  obtain ⟨-, -, -, -, -, -, e20, e21, e22, e23⟩ := idx_facts1 ⟨(i 0).val / 64, by rw [show cfg1.N = 32 from N_1]; omega⟩
  intro a
  match a with
  | ⟨0, _⟩ => show win1_2.index _ (0 : Fin 4) * 64 ≤ (i 0).val ∧ (i 0).val < win1_2.index _ (0 : Fin 4) * 64 + 64; rw [e20]; show (i 0).val / 64 * 64 ≤ (i 0).val ∧ (i 0).val < (i 0).val / 64 * 64 + 64; omega
  | ⟨1, _⟩ => show win1_2.index _ (1 : Fin 4) * 8 ≤ (i 1).val ∧ (i 1).val < win1_2.index _ (1 : Fin 4) * 8 + 8; rw [e21]; omega
  | ⟨2, _⟩ => show win1_2.index _ (2 : Fin 4) * 64 ≤ (i 2).val ∧ (i 2).val < win1_2.index _ (2 : Fin 4) * 64 + 64; rw [e22]; omega
  | ⟨3, _⟩ => show win1_2.index _ (3 : Fin 4) * 64 ≤ (i 3).val ∧ (i 3).val < win1_2.index _ (3 : Fin 4) * 64 + 64; rw [e23]; omega

/-- THE ARRAY after the region: `arr1` of the two operand arrays as the region finds them. -/
theorem final1 (c : Dev nD) : (dat1 V c).arrAt 2 cfg1.N = arr1 (opA1 V c) (opB1 V c) :=
  (dat1 V c).arrAt_eq_of_cover 2 _ (fun t _ => flushed1_eq V c t) (cover1)

end Arr

end Cert.KernelIdeal.Frame

end
-- ==== Proof.Ideal.Value2.lean ====
/-
  Region 2 (sub-rows per multiplicity index: 5), valued over the extended reals. First the block: the eight rows the
  body stores are the rows of ONE function `block2` of the two input blocks — entry `(n, i, u, v)` is
  `(Σ_{m < 5} x0[n, 5 i + m, u] · x1[n, 5 i + m, v]) · s`; the body adds the 5 products up from zero in order, and a sum from zero in
  order is the sum. Then the array: grid point `t` handles rows `[64 t, 64 t + 64)` of every operand, so what it writes
  back is block `t` of the same formula `arr2` over the whole operand arrays; the 32 blocks cover the result array, which
  therefore ends at `arr2` of the operands as the region finds them (`final2`).
-/
import proofs.«102490_j7232724927058_2_alg».proof.Proof.Ideal.Region2
import proofs.«102490_j7232724927058_2_alg».proof.Proof.Ideal.PieceValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.SL.Sem Idealize.ShloMosaic.ValueIdx
open Cert.KernelIdeal Cert.KernelIdeal.Gen

/-! ## Body 2: what its stores leave, read at an index -/

/-- Sub-row `k` of an input block, placed in the block: row `n`, sub-row `k`, channel `u`. -/
theorem lrow2_idx (k : Nat) (hk : k < 40) (n u : Fin 64) :
    (lrow2 k hk).idx (ix3 n (0 : Fin 1) u) = ix3 n (⟨k, hk⟩ : Fin 40) u :=
  funext fun a => Fin.ext (by
    match a with
    | ⟨0, _⟩ => show 0 + 1 * n.val = n.val; omega
    | ⟨1, _⟩ => show k + 1 * (0 : Fin 1).val = k; simp
    | ⟨2, _⟩ => show 0 + 1 * u.val = u.val; omega)

/-- One term of the sum at `(n, u, v)`: `x0[n, k, u] · x1[n, k, v]`. -/
theorem term2_apply (x0 x1 : Vec Ideal S64x40x64 .f32) (k : Nat) (hk : k < 40) (n u v : Fin 64) :
    term2 x0 x1 k hk (ix3 n u v) = x0 (ix3 n (⟨k, hk⟩ : Fin 40) u) * x1 (ix3 n (⟨k, hk⟩ : Fin 40) v) := by
  unfold term2
  rw [outer_apply]
  show x0 ((lrow2 k hk).idx (ix3 n (0 : Fin 1) u)) * x1 ((lrow2 k hk).idx (ix3 n (0 : Fin 1) v)) = _
  rw [lrow2_idx, lrow2_idx]

/-- The output block's entry `(n, i, u, v)` as the body computes it: the sum over the 5 sub-rows of index `i`, times the scalar. -/
def g2 (x0 x1 : Vec Ideal S64x40x64 .f32) (n : Fin 64) (i : Fin 8) (u v : Fin 64) : EReal :=
  (∑ m : Fin 5, x0 (ix3 n (⟨5 * i.val + m.val, by have := i.isLt; have := m.isLt; omega⟩ : Fin 40) u)
      * x1 (ix3 n (⟨5 * i.val + m.val, by have := i.isLt; have := m.isLt; omega⟩ : Fin 40) v)) * Ideal.ofBits .f32 0x3EE4F92E#32

/-- The output block as ONE function of the two input blocks. -/
def block2 (x0 x1 : Vec Ideal S64x40x64 .f32) : Vec Ideal S64x8x64x64 .f32 :=
  fun y => g2 x0 x1 (y 0) (y 1) (y 2) (y 3)

/-- Row `i` as stored is row `i` of that function: the sum from zero, in order, is the sum. -/
theorem piece2_apply (x0 x1 : Vec Ideal S64x40x64 .f32) (i : Nat) (hi : i < 8) (n u v : Fin 64) :
    piece2 x0 x1 i hi (ix4 n (0 : Fin 1) u v) = g2 x0 x1 n ⟨i, hi⟩ u v := by
  unfold piece2 g2
  rw [scaled_apply]
  simp only [addf_apply, zacc_apply, term2_apply, zero_add, Fin.sum_univ_five]
  rfl

theorem piece2_eq_block (x0 x1 : Vec Ideal S64x40x64 .f32) (i : Nat) (hi : i < 8) (x : (srow i hi).shape.Idx) :
    piece2 x0 x1 i hi x = block2 x0 x1 ((srow i hi).emb x) := by
  obtain ⟨n, z, u, v, rfl⟩ : ∃ (n : Fin 64) (z : Fin 1) (u v : Fin 64), x = ix4 n z u v := ⟨x 0, x 1, x 2, x 3, eq_ix4 x⟩
  obtain rfl : z = 0 := Subsingleton.elim _ _
  rw [srow_emb, piece2_apply]
  rfl

/-- THE BLOCK: after the body the output block is `block2` of the two input blocks. -/
theorem out2_eq (x0 x1 : Vec Ideal S64x40x64 .f32) : out2 x0 x1 = block2 x0 x1 := by
  funext y
  unfold out2
  refine View.canon_apply_of_pieces (block2 x0 x1) _ (fun p hp => ?_) y (cover_rows _ _ _ _ _ _ _ _ y)
  simp only [List.mem_cons, List.not_mem_nil, or_false] at hp
  rcases hp with rfl | rfl | rfl | rfl | rfl | rfl | rfl | rfl <;> exact piece2_eq_block x0 x1 _ (by decide)

/-! ## Region 2: from the blocks to the array -/

/-- The region's result array as ONE function of its two operand arrays: entry `(n, i, u, v)` is
    `(Σ_{m < 5} s0[n, 5 i + m, u] · s1[n, 5 i + m, v]) · s`. -/
def arr2 (s0 s1 : S2048x40x64.Idx → EReal) : S2048x8x64x64.Idx → EReal := fun j =>
  (∑ m : Fin 5, s0 (ix3 (j 0) (⟨5 * (j 1).val + m.val, by have h : (j 1).val < 8 := (j 1).isLt; have := m.isLt; omega⟩ : Fin 40) (j 2))
      * s1 (ix3 (j 0) (⟨5 * (j 1).val + m.val, by have h : (j 1).val < 8 := (j 1).isLt; have := m.isLt; omega⟩ : Fin 40) (j 3))) * Ideal.ofBits .f32 0x3EE4F92E#32

/-- The printed index maps, decided over the grid: at point `t` every window is at block `t` of the leading axis and
    block 0 of the others. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 4) = t.val ∧ win2_2.index t (1 : Fin 4) = 0 ∧ win2_2.index t (2 : Fin 4) = 0 ∧ win2_2.index t (3 : Fin 4) = 0 :=
  (by decide +kernel : ∀ t : Fin grid2.N, _)

section Arr

variable (V : (c : Dev nD) → (b : Ref sig .tc) → Buf (Elt Ideal) ((c : Thread nD τ).loc b))

/-- The region's two operand arrays as the region finds them, as arrays of extended reals. -/
abbrev opA2 (c : Dev nD) : S2048x40x64.Idx → EReal := V c main_v6
abbrev opB2 (c : Dev nD) : S2048x40x64.Idx → EReal := V c main_v7

/-- WHAT POINT `t` WRITES BACK is block `t` of `arr2` of the operand arrays as the region finds them. -/
theorem flushed2_eq (c : Dev nD) (t : Fin cfg2.N) :
    (dat2 V c).flushed 2 t = ((cfg2.win 2).blk t).view.read (Elt Ideal) (arr2 (opA2 V c) (opB2 V c)) := by
  show (cfg2.win 2).cut (grid2.coords t) ((dat2 V c).after 2 t) = _
  rw [after2_2, out2_eq]
  obtain ⟨e00, e01, e02, e10, e11, e12, e20, e21, e22, e23⟩ := idx_facts2 t
  funext y
  show (∑ m : Fin 5, opA2 V c (((cfg2.win 0).blk t).view.emb (ix3 (y 0) (⟨5 * (y 1).val + m.val, _⟩ : Fin 40) (y 2)))
        * opB2 V c (((cfg2.win 1).blk t).view.emb (ix3 (y 0) (⟨5 * (y 1).val + m.val, _⟩ : Fin 40) (y 3)))) * Ideal.ofBits .f32 0x3EE4F92E#32
      = arr2 (opA2 V c) (opB2 V c) (((cfg2.win 2).blk t).view.emb y)
  unfold arr2
  refine congrArg (· * Ideal.ofBits .f32 0x3EE4F92E#32) (Finset.sum_congr rfl fun m _ => ?_)
  have h0 : ((cfg2.win 0).blk t).view.emb (ix3 (y 0) (⟨5 * (y 1).val + m.val, by have h : (y 1).val < 8 := (y 1).isLt; have := m.isLt; omega⟩ : Fin 40) (y 2))
      = ix3 ((((cfg2.win 2).blk t).view.emb y) 0) (⟨5 * ((((cfg2.win 2).blk t).view.emb y) 1).val + m.val, by have h : ((((cfg2.win 2).blk t).view.emb y) 1).val < 8 := ((((cfg2.win 2).blk t).view.emb y) 1).isLt; have := m.isLt; omega⟩ : Fin 40) ((((cfg2.win 2).blk t).view.emb y) 2) := by
    funext a; apply Fin.ext
    match a with
    | ⟨0, _⟩ => show win2_0.index t (0 : Fin 3) * 64 + 1 * (y 0).val = win2_2.index t (0 : Fin 4) * 64 + 1 * (y 0).val; omega
    | ⟨1, _⟩ => show win2_0.index t (1 : Fin 3) * 40 + 1 * (5 * (y 1).val + m.val) = 5 * (win2_2.index t (1 : Fin 4) * 8 + 1 * (y 1).val) + m.val; omega
    | ⟨2, _⟩ => show win2_0.index t (2 : Fin 3) * 64 + 1 * (y 2).val = win2_2.index t (2 : Fin 4) * 64 + 1 * (y 2).val; omega
  have h1 : ((cfg2.win 1).blk t).view.emb (ix3 (y 0) (⟨5 * (y 1).val + m.val, by have h : (y 1).val < 8 := (y 1).isLt; have := m.isLt; omega⟩ : Fin 40) (y 3))
      = ix3 ((((cfg2.win 2).blk t).view.emb y) 0) (⟨5 * ((((cfg2.win 2).blk t).view.emb y) 1).val + m.val, by have h : ((((cfg2.win 2).blk t).view.emb y) 1).val < 8 := ((((cfg2.win 2).blk t).view.emb y) 1).isLt; have := m.isLt; omega⟩ : Fin 40) ((((cfg2.win 2).blk t).view.emb y) 3) := by
    funext a; apply Fin.ext
    match a with
    | ⟨0, _⟩ => show win2_1.index t (0 : Fin 3) * 64 + 1 * (y 0).val = win2_2.index t (0 : Fin 4) * 64 + 1 * (y 0).val; omega
    | ⟨1, _⟩ => show win2_1.index t (1 : Fin 3) * 40 + 1 * (5 * (y 1).val + m.val) = 5 * (win2_2.index t (1 : Fin 4) * 8 + 1 * (y 1).val) + m.val; omega
    | ⟨2, _⟩ => show win2_1.index t (2 : Fin 3) * 64 + 1 * (y 3).val = win2_2.index t (3 : Fin 4) * 64 + 1 * (y 3).val; omega
  rw [h0, h1]
  rfl

/-- An index of the result array is in point `t`'s block iff each coordinate is in the block's range on its axis. -/
theorem mem_blk2 (t : Fin cfg2.N) (i : S2048x8x64x64.Idx) :
    i ∈ ((cfg2.win 2).blk t).view.set ↔ ∀ a : Fin 4, win2_2.index t a * S64x8x64x64.size a ≤ (i a).val ∧ (i a).val < win2_2.index t a * S64x8x64x64.size a + S64x8x64x64.size a := by
  show i ∈ ((View.whole main_v8).slice (win2_2.rect t)).set ↔ _
  rw [View.set_slice_whole, Rect.mem_set_unit]
  exact Iff.rfl

/-- Every index of the result array is in the block of the point `(its row) / 64`. -/
theorem cover2 (i : S2048x8x64x64.Idx) : ∃ t : Fin cfg2.N, (cfg2.win 2).flush t = true ∧ i ∈ ((cfg2.win 2).blk t).view.set := by
  have hi0 : (i 0).val < 2048 := (i 0).isLt
  have hi1 : (i 1).val < 8 := (i 1).isLt
  have hi2 : (i 2).val < 64 := (i 2).isLt
  have hi3 : (i 3).val < 64 := (i 3).isLt
  refine ⟨⟨(i 0).val / 64, by rw [show cfg2.N = 32 from N_2]; omega⟩, flush2_2 _, ?_⟩
  rw [mem_blk2]
  obtain ⟨-, -, -, -, -, -, e20, e21, e22, e23⟩ := idx_facts2 ⟨(i 0).val / 64, by rw [show cfg2.N = 32 from N_2]; omega⟩
  intro a
  match a with
  | ⟨0, _⟩ => show win2_2.index _ (0 : Fin 4) * 64 ≤ (i 0).val ∧ (i 0).val < win2_2.index _ (0 : Fin 4) * 64 + 64; rw [e20]; show (i 0).val / 64 * 64 ≤ (i 0).val ∧ (i 0).val < (i 0).val / 64 * 64 + 64; omega
  | ⟨1, _⟩ => show win2_2.index _ (1 : Fin 4) * 8 ≤ (i 1).val ∧ (i 1).val < win2_2.index _ (1 : Fin 4) * 8 + 8; rw [e21]; omega
  | ⟨2, _⟩ => show win2_2.index _ (2 : Fin 4) * 64 ≤ (i 2).val ∧ (i 2).val < win2_2.index _ (2 : Fin 4) * 64 + 64; rw [e22]; omega
  | ⟨3, _⟩ => show win2_2.index _ (3 : Fin 4) * 64 ≤ (i 3).val ∧ (i 3).val < win2_2.index _ (3 : Fin 4) * 64 + 64; rw [e23]; omega

/-- THE ARRAY after the region: `arr2` of the two operand arrays as the region finds them. -/
theorem final2 (c : Dev nD) : (dat2 V c).arrAt 2 cfg2.N = arr2 (opA2 V c) (opB2 V c) :=
  (dat2 V c).arrAt_eq_of_cover 2 _ (fun t _ => flushed2_eq V c t) (cover2)

end Arr

end Cert.KernelIdeal.Frame

end
-- ==== Proof.Ideal.Value3.lean ====
/-
  Region 3 (sub-rows per multiplicity index: 7), valued over the extended reals. First the block: the eight rows the
  body stores are the rows of ONE function `block3` of the two input blocks — entry `(n, i, u, v)` is
  `(Σ_{m < 7} x0[n, 7 i + m, u] · x1[n, 7 i + m, v]) · s`; the body adds the 7 products up from zero in order, and a sum from zero in
  order is the sum. Then the array: grid point `t` handles rows `[64 t, 64 t + 64)` of every operand, so what it writes
  back is block `t` of the same formula `arr3` over the whole operand arrays; the 32 blocks cover the result array, which
  therefore ends at `arr3` of the operands as the region finds them (`final3`).
-/
import proofs.«102490_j7232724927058_2_alg».proof.Proof.Ideal.Region3
import proofs.«102490_j7232724927058_2_alg».proof.Proof.Ideal.PieceValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.SL.Sem Idealize.ShloMosaic.ValueIdx
open Cert.KernelIdeal Cert.KernelIdeal.Gen

/-! ## Body 3: what its stores leave, read at an index -/

/-- Sub-row `k` of an input block, placed in the block: row `n`, sub-row `k`, channel `u`. -/
theorem lrow3_idx (k : Nat) (hk : k < 56) (n u : Fin 64) :
    (lrow3 k hk).idx (ix3 n (0 : Fin 1) u) = ix3 n (⟨k, hk⟩ : Fin 56) u :=
  funext fun a => Fin.ext (by
    match a with
    | ⟨0, _⟩ => show 0 + 1 * n.val = n.val; omega
    | ⟨1, _⟩ => show k + 1 * (0 : Fin 1).val = k; simp
    | ⟨2, _⟩ => show 0 + 1 * u.val = u.val; omega)

/-- One term of the sum at `(n, u, v)`: `x0[n, k, u] · x1[n, k, v]`. -/
theorem term3_apply (x0 x1 : Vec Ideal S64x56x64 .f32) (k : Nat) (hk : k < 56) (n u v : Fin 64) :
    term3 x0 x1 k hk (ix3 n u v) = x0 (ix3 n (⟨k, hk⟩ : Fin 56) u) * x1 (ix3 n (⟨k, hk⟩ : Fin 56) v) := by
  unfold term3
  rw [outer_apply]
  show x0 ((lrow3 k hk).idx (ix3 n (0 : Fin 1) u)) * x1 ((lrow3 k hk).idx (ix3 n (0 : Fin 1) v)) = _
  rw [lrow3_idx, lrow3_idx]

/-- The output block's entry `(n, i, u, v)` as the body computes it: the sum over the 7 sub-rows of index `i`, times the scalar. -/
def g3 (x0 x1 : Vec Ideal S64x56x64 .f32) (n : Fin 64) (i : Fin 8) (u v : Fin 64) : EReal :=
  (∑ m : Fin 7, x0 (ix3 n (⟨7 * i.val + m.val, by have := i.isLt; have := m.isLt; omega⟩ : Fin 56) u)
      * x1 (ix3 n (⟨7 * i.val + m.val, by have := i.isLt; have := m.isLt; omega⟩ : Fin 56) v)) * Ideal.ofBits .f32 0x3EC1848F#32

/-- The output block as ONE function of the two input blocks. -/
def block3 (x0 x1 : Vec Ideal S64x56x64 .f32) : Vec Ideal S64x8x64x64 .f32 :=
  fun y => g3 x0 x1 (y 0) (y 1) (y 2) (y 3)

/-- Row `i` as stored is row `i` of that function: the sum from zero, in order, is the sum. -/
theorem piece3_apply (x0 x1 : Vec Ideal S64x56x64 .f32) (i : Nat) (hi : i < 8) (n u v : Fin 64) :
    piece3 x0 x1 i hi (ix4 n (0 : Fin 1) u v) = g3 x0 x1 n ⟨i, hi⟩ u v := by
  unfold piece3 g3
  rw [scaled_apply]
  simp only [addf_apply, zacc_apply, term3_apply, zero_add, Fin.sum_univ_seven]
  rfl

theorem piece3_eq_block (x0 x1 : Vec Ideal S64x56x64 .f32) (i : Nat) (hi : i < 8) (x : (srow i hi).shape.Idx) :
    piece3 x0 x1 i hi x = block3 x0 x1 ((srow i hi).emb x) := by
  obtain ⟨n, z, u, v, rfl⟩ : ∃ (n : Fin 64) (z : Fin 1) (u v : Fin 64), x = ix4 n z u v := ⟨x 0, x 1, x 2, x 3, eq_ix4 x⟩
  obtain rfl : z = 0 := Subsingleton.elim _ _
  rw [srow_emb, piece3_apply]
  rfl

/-- THE BLOCK: after the body the output block is `block3` of the two input blocks. -/
theorem out3_eq (x0 x1 : Vec Ideal S64x56x64 .f32) : out3 x0 x1 = block3 x0 x1 := by
  funext y
  unfold out3
  refine View.canon_apply_of_pieces (block3 x0 x1) _ (fun p hp => ?_) y (cover_rows _ _ _ _ _ _ _ _ y)
  simp only [List.mem_cons, List.not_mem_nil, or_false] at hp
  rcases hp with rfl | rfl | rfl | rfl | rfl | rfl | rfl | rfl <;> exact piece3_eq_block x0 x1 _ (by decide)

/-! ## Region 3: from the blocks to the array -/

/-- The region's result array as ONE function of its two operand arrays: entry `(n, i, u, v)` is
    `(Σ_{m < 7} s0[n, 7 i + m, u] · s1[n, 7 i + m, v]) · s`. -/
def arr3 (s0 s1 : S2048x56x64.Idx → EReal) : S2048x8x64x64.Idx → EReal := fun j =>
  (∑ m : Fin 7, s0 (ix3 (j 0) (⟨7 * (j 1).val + m.val, by have h : (j 1).val < 8 := (j 1).isLt; have := m.isLt; omega⟩ : Fin 56) (j 2))
      * s1 (ix3 (j 0) (⟨7 * (j 1).val + m.val, by have h : (j 1).val < 8 := (j 1).isLt; have := m.isLt; omega⟩ : Fin 56) (j 3))) * Ideal.ofBits .f32 0x3EC1848F#32

/-- The printed index maps, decided over the grid: at point `t` every window is at block `t` of the leading axis and
    block 0 of the others. -/
theorem idx_facts3 : ∀ t : Fin cfg3.N,
    win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 4) = t.val ∧ win3_2.index t (1 : Fin 4) = 0 ∧ win3_2.index t (2 : Fin 4) = 0 ∧ win3_2.index t (3 : Fin 4) = 0 :=
  (by decide +kernel : ∀ t : Fin grid3.N, _)

section Arr

variable (V : (c : Dev nD) → (b : Ref sig .tc) → Buf (Elt Ideal) ((c : Thread nD τ).loc b))

/-- The region's two operand arrays as the region finds them, as arrays of extended reals. -/
abbrev opA3 (c : Dev nD) : S2048x56x64.Idx → EReal := V c main_v9
abbrev opB3 (c : Dev nD) : S2048x56x64.Idx → EReal := V c main_v10

/-- WHAT POINT `t` WRITES BACK is block `t` of `arr3` of the operand arrays as the region finds them. -/
theorem flushed3_eq (c : Dev nD) (t : Fin cfg3.N) :
    (dat3 V c).flushed 2 t = ((cfg3.win 2).blk t).view.read (Elt Ideal) (arr3 (opA3 V c) (opB3 V c)) := by
  show (cfg3.win 2).cut (grid3.coords t) ((dat3 V c).after 2 t) = _
  rw [after3_2, out3_eq]
  obtain ⟨e00, e01, e02, e10, e11, e12, e20, e21, e22, e23⟩ := idx_facts3 t
  funext y
  show (∑ m : Fin 7, opA3 V c (((cfg3.win 0).blk t).view.emb (ix3 (y 0) (⟨7 * (y 1).val + m.val, _⟩ : Fin 56) (y 2)))
        * opB3 V c (((cfg3.win 1).blk t).view.emb (ix3 (y 0) (⟨7 * (y 1).val + m.val, _⟩ : Fin 56) (y 3)))) * Ideal.ofBits .f32 0x3EC1848F#32
      = arr3 (opA3 V c) (opB3 V c) (((cfg3.win 2).blk t).view.emb y)
  unfold arr3
  refine congrArg (· * Ideal.ofBits .f32 0x3EC1848F#32) (Finset.sum_congr rfl fun m _ => ?_)
  have h0 : ((cfg3.win 0).blk t).view.emb (ix3 (y 0) (⟨7 * (y 1).val + m.val, by have h : (y 1).val < 8 := (y 1).isLt; have := m.isLt; omega⟩ : Fin 56) (y 2))
      = ix3 ((((cfg3.win 2).blk t).view.emb y) 0) (⟨7 * ((((cfg3.win 2).blk t).view.emb y) 1).val + m.val, by have h : ((((cfg3.win 2).blk t).view.emb y) 1).val < 8 := ((((cfg3.win 2).blk t).view.emb y) 1).isLt; have := m.isLt; omega⟩ : Fin 56) ((((cfg3.win 2).blk t).view.emb y) 2) := by
    funext a; apply Fin.ext
    match a with
    | ⟨0, _⟩ => show win3_0.index t (0 : Fin 3) * 64 + 1 * (y 0).val = win3_2.index t (0 : Fin 4) * 64 + 1 * (y 0).val; omega
    | ⟨1, _⟩ => show win3_0.index t (1 : Fin 3) * 56 + 1 * (7 * (y 1).val + m.val) = 7 * (win3_2.index t (1 : Fin 4) * 8 + 1 * (y 1).val) + m.val; omega
    | ⟨2, _⟩ => show win3_0.index t (2 : Fin 3) * 64 + 1 * (y 2).val = win3_2.index t (2 : Fin 4) * 64 + 1 * (y 2).val; omega
  have h1 : ((cfg3.win 1).blk t).view.emb (ix3 (y 0) (⟨7 * (y 1).val + m.val, by have h : (y 1).val < 8 := (y 1).isLt; have := m.isLt; omega⟩ : Fin 56) (y 3))
      = ix3 ((((cfg3.win 2).blk t).view.emb y) 0) (⟨7 * ((((cfg3.win 2).blk t).view.emb y) 1).val + m.val, by have h : ((((cfg3.win 2).blk t).view.emb y) 1).val < 8 := ((((cfg3.win 2).blk t).view.emb y) 1).isLt; have := m.isLt; omega⟩ : Fin 56) ((((cfg3.win 2).blk t).view.emb y) 3) := by
    funext a; apply Fin.ext
    match a with
    | ⟨0, _⟩ => show win3_1.index t (0 : Fin 3) * 64 + 1 * (y 0).val = win3_2.index t (0 : Fin 4) * 64 + 1 * (y 0).val; omega
    | ⟨1, _⟩ => show win3_1.index t (1 : Fin 3) * 56 + 1 * (7 * (y 1).val + m.val) = 7 * (win3_2.index t (1 : Fin 4) * 8 + 1 * (y 1).val) + m.val; omega
    | ⟨2, _⟩ => show win3_1.index t (2 : Fin 3) * 64 + 1 * (y 3).val = win3_2.index t (3 : Fin 4) * 64 + 1 * (y 3).val; omega
  rw [h0, h1]
  rfl

/-- An index of the result array is in point `t`'s block iff each coordinate is in the block's range on its axis. -/
theorem mem_blk3 (t : Fin cfg3.N) (i : S2048x8x64x64.Idx) :
    i ∈ ((cfg3.win 2).blk t).view.set ↔ ∀ a : Fin 4, win3_2.index t a * S64x8x64x64.size a ≤ (i a).val ∧ (i a).val < win3_2.index t a * S64x8x64x64.size a + S64x8x64x64.size a := by
  show i ∈ ((View.whole main_v11).slice (win3_2.rect t)).set ↔ _
  rw [View.set_slice_whole, Rect.mem_set_unit]
  exact Iff.rfl

/-- Every index of the result array is in the block of the point `(its row) / 64`. -/
theorem cover3 (i : S2048x8x64x64.Idx) : ∃ t : Fin cfg3.N, (cfg3.win 2).flush t = true ∧ i ∈ ((cfg3.win 2).blk t).view.set := by
  have hi0 : (i 0).val < 2048 := (i 0).isLt
  have hi1 : (i 1).val < 8 := (i 1).isLt
  have hi2 : (i 2).val < 64 := (i 2).isLt
  have hi3 : (i 3).val < 64 := (i 3).isLt
  refine ⟨⟨(i 0).val / 64, by rw [show cfg3.N = 32 from N_3]; omega⟩, flush3_2 _, ?_⟩
  rw [mem_blk3]
  obtain ⟨-, -, -, -, -, -, e20, e21, e22, e23⟩ := idx_facts3 ⟨(i 0).val / 64, by rw [show cfg3.N = 32 from N_3]; omega⟩
  intro a
  match a with
  | ⟨0, _⟩ => show win3_2.index _ (0 : Fin 4) * 64 ≤ (i 0).val ∧ (i 0).val < win3_2.index _ (0 : Fin 4) * 64 + 64; rw [e20]; show (i 0).val / 64 * 64 ≤ (i 0).val ∧ (i 0).val < (i 0).val / 64 * 64 + 64; omega
  | ⟨1, _⟩ => show win3_2.index _ (1 : Fin 4) * 8 ≤ (i 1).val ∧ (i 1).val < win3_2.index _ (1 : Fin 4) * 8 + 8; rw [e21]; omega
  | ⟨2, _⟩ => show win3_2.index _ (2 : Fin 4) * 64 ≤ (i 2).val ∧ (i 2).val < win3_2.index _ (2 : Fin 4) * 64 + 64; rw [e22]; omega
  | ⟨3, _⟩ => show win3_2.index _ (3 : Fin 4) * 64 ≤ (i 3).val ∧ (i 3).val < win3_2.index _ (3 : Fin 4) * 64 + 64; rw [e23]; omega

/-- THE ARRAY after the region: `arr3` of the two operand arrays as the region finds them. -/
theorem final3 (c : Dev nD) : (dat3 V c).arrAt 2 cfg3.N = arr3 (opA3 V c) (opB3 V c) :=
  (dat3 V c).arrAt_eq_of_cover 2 _ (fun t _ => flushed3_eq V c t) (cover3)

end Arr

end Cert.KernelIdeal.Frame

end
-- ==== Proof.Ideal.Result.lean ====
/-
  What the program computes, over the extended reals: the result array `main_v12` at the end of the run. The last host
  operation concatenates the four regions' result arrays along the multiplicity axis; region K's array is `arrK` of its
  two operand arrays (its value module), its operands are rows `[off_K, off_K + 8 d_K)` of the two arguments (sliced out by
  the host just before the region, the arguments never written), and nothing after region K writes its result array before
  the concatenation reads it. So the result is `spec` of the two arguments: the concatenation of the four `arrK` of the
  arguments' slices.
-/
import proofs.«102490_j7232724927058_2_alg».proof.Proof.Ideal.Run
import proofs.«102490_j7232724927058_2_alg».proof.Proof.Ideal.Value0
import proofs.«102490_j7232724927058_2_alg».proof.Proof.Ideal.Value1
import proofs.«102490_j7232724927058_2_alg».proof.Proof.Ideal.Value2
import proofs.«102490_j7232724927058_2_alg».proof.Proof.Ideal.Value3
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Frame

open Idealize.ShloMosaic Idealize.ShloMosaic.TcCoe Idealize.SL.Sem Idealize.ShloMosaic.ValueIdx
open Cert.KernelIdeal Cert.KernelIdeal.Gen Idealize.ShloMosaic.StableHlo

/-- The rows of an argument that belong to region 0: sub-rows `[0, 8)`. -/
abbrev sl0 (x : S2048x128x64.Idx → EReal) : S2048x8x64.Idx → EReal :=
  extractStridedSlice S2048x8x64 ![0, 0, 0] x slices_S2048x128x64_S2048x8x64_0_0_0
/-- The rows of an argument that belong to region 1: sub-rows `[8, 32)`. -/
abbrev sl1 (x : S2048x128x64.Idx → EReal) : S2048x24x64.Idx → EReal :=
  extractStridedSlice S2048x24x64 ![0, 8, 0] x slices_S2048x128x64_S2048x24x64_0_8_0
/-- The rows of an argument that belong to region 2: sub-rows `[32, 72)`. -/
abbrev sl2 (x : S2048x128x64.Idx → EReal) : S2048x40x64.Idx → EReal :=
  extractStridedSlice S2048x40x64 ![0, 32, 0] x slices_S2048x128x64_S2048x40x64_0_32_0
/-- The rows of an argument that belong to region 3: sub-rows `[72, 128)`. -/
abbrev sl3 (x : S2048x128x64.Idx → EReal) : S2048x56x64.Idx → EReal :=
  extractStridedSlice S2048x56x64 ![0, 72, 0] x slices_S2048x128x64_S2048x56x64_0_72_0

/-- THE SPECIFICATION: the four regions' arrays of the arguments' slices, concatenated along the multiplicity axis. -/
def spec (x0 x1 : S2048x128x64.Idx → EReal) : S2048x32x64x64.Idx → EReal :=
  concatenate S2048x32x64x64 1 [⟨S2048x8x64x64, arr0 (sl0 x0) (sl0 x1)⟩, ⟨S2048x8x64x64, arr1 (sl1 x0) (sl1 x1)⟩,
    ⟨S2048x8x64x64, arr2 (sl2 x0) (sl2 x1)⟩, ⟨S2048x8x64x64, arr3 (sl3 x0) (sl3 x1)⟩]
    concatenates_S2048x8x64x64_S2048x8x64x64_S2048x8x64x64_S2048x8x64x64_S2048x32x64x64_d1

variable (m : (ℓ : Loc nD τ sig) → Buf (Elt Ideal) ℓ) (ρ : Dev nD → PrngReg)

/-! ## The arguments at each region's entry -/

theorem W2_main_arg0 (c : Dev nD) : W2 m ρ c (Proc.devRef .tc main_arg0) = m ((c : Thread nD τ).loc main_arg0) :=
  (W2_of_ne m ρ c main_arg0 (by decide)).trans <| (W1_of m ρ c main_arg0 (by decide)).trans <| rfl
theorem W2_main_arg1 (c : Dev nD) : W2 m ρ c (Proc.devRef .tc main_arg1) = m ((c : Thread nD τ).loc main_arg1) :=
  (W2_of_ne m ρ c main_arg1 (by decide)).trans <| (W1_of m ρ c main_arg1 (by decide)).trans <| rfl
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <| (W2_of_ne m ρ c main_arg0 (by decide)).trans <| (W1_of m ρ c main_arg0 (by decide)).trans <| rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <| (W2_of_ne m ρ c main_arg1 (by decide)).trans <| (W1_of m ρ c main_arg1 (by decide)).trans <| rfl
theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <| (W3_of m ρ c main_arg0 (by decide)).trans <| (W2_of_ne m ρ c main_arg0 (by decide)).trans <| (W1_of m ρ c main_arg0 (by decide)).trans <| rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <| (W3_of m ρ c main_arg1 (by decide)).trans <| (W2_of_ne m ρ c main_arg1 (by decide)).trans <| (W1_of m ρ c main_arg1 (by decide)).trans <| rfl

/-! ### Region 0 -/

/-- Region 0's operands are the region's rows of the two arguments: the host slices them out just before the region, from
    arguments nothing has written. -/
theorem opA0_eq (c : Dev nD) : opA0 (V1 m ρ) c = sl0 (m ((c : Thread nD τ).loc main_arg0)) := by
  have h : StableHlo.after hostOps0 (W0 m ρ c) (Proc.devRef .tc main_v0) = sl0 (W0 m ρ c (Proc.devRef .tc main_arg0)) := by
    after_results <;> rfl
  exact h.trans (congrArg sl0 (rfl))
theorem opB0_eq (c : Dev nD) : opB0 (V1 m ρ) c = sl0 (m ((c : Thread nD τ).loc main_arg1)) := by
  have h : StableHlo.after hostOps0 (W0 m ρ c) (Proc.devRef .tc main_v1) = sl0 (W0 m ρ c (Proc.devRef .tc main_arg1)) := by
    after_results <;> rfl
  exact h.trans (congrArg sl0 (rfl))

/-- What region 0 leaves in its result array, still there at the end of the regions. -/
theorem W8_main_v2 (c : Dev nD) : W8 m ρ c (Proc.devRef .tc main_v2)
    = arr0 (sl0 (m ((c : Thread nD τ).loc main_arg0))) (sl0 (m ((c : Thread nD τ).loc main_arg1))) := by
  refine (W8_of_ne m ρ c main_v2 (by decide)).trans <| (W7_of m ρ c main_v2 (by decide)).trans <| (W6_of_ne m ρ c main_v2 (by decide)).trans <| (W5_of m ρ c main_v2 (by decide)).trans <| (W4_of_ne m ρ c main_v2 (by decide)).trans <| (W3_of m ρ c main_v2 (by decide)).trans <| (W2_arr m ρ c 2).trans <| (final0 (V1 m ρ) c).trans ?_
  rw [opA0_eq, opB0_eq]

/-! ### Region 1 -/

/-- Region 1's operands are the region's rows of the two arguments: the host slices them out just before the region, from
    arguments nothing has written. -/
theorem opA1_eq (c : Dev nD) : opA1 (V3 m ρ) c = sl1 (m ((c : Thread nD τ).loc main_arg0)) := by
  have h : StableHlo.after hostOps1 (W2 m ρ c) (Proc.devRef .tc main_v3) = sl1 (W2 m ρ c (Proc.devRef .tc main_arg0)) := by
    after_results <;> rfl
  exact h.trans (congrArg sl1 (W2_main_arg0 m ρ c))
theorem opB1_eq (c : Dev nD) : opB1 (V3 m ρ) c = sl1 (m ((c : Thread nD τ).loc main_arg1)) := by
  have h : StableHlo.after hostOps1 (W2 m ρ c) (Proc.devRef .tc main_v4) = sl1 (W2 m ρ c (Proc.devRef .tc main_arg1)) := by
    after_results <;> rfl
  exact h.trans (congrArg sl1 (W2_main_arg1 m ρ c))

/-- What region 1 leaves in its result array, still there at the end of the regions. -/
theorem W8_main_v5 (c : Dev nD) : W8 m ρ c (Proc.devRef .tc main_v5)
    = arr1 (sl1 (m ((c : Thread nD τ).loc main_arg0))) (sl1 (m ((c : Thread nD τ).loc main_arg1))) := by
  refine (W8_of_ne m ρ c main_v5 (by decide)).trans <| (W7_of m ρ c main_v5 (by decide)).trans <| (W6_of_ne m ρ c main_v5 (by decide)).trans <| (W5_of m ρ c main_v5 (by decide)).trans <| (W4_arr m ρ c 2).trans <| (final1 (V3 m ρ) c).trans ?_
  rw [opA1_eq, opB1_eq]

/-! ### Region 2 -/

/-- Region 2's operands are the region's rows of the two arguments: the host slices them out just before the region, from
    arguments nothing has written. -/
theorem opA2_eq (c : Dev nD) : opA2 (V5 m ρ) c = sl2 (m ((c : Thread nD τ).loc main_arg0)) := by
  have h : StableHlo.after hostOps2 (W4 m ρ c) (Proc.devRef .tc main_v6) = sl2 (W4 m ρ c (Proc.devRef .tc main_arg0)) := by
    after_results <;> rfl
  exact h.trans (congrArg sl2 (W4_main_arg0 m ρ c))
theorem opB2_eq (c : Dev nD) : opB2 (V5 m ρ) c = sl2 (m ((c : Thread nD τ).loc main_arg1)) := by
  have h : StableHlo.after hostOps2 (W4 m ρ c) (Proc.devRef .tc main_v7) = sl2 (W4 m ρ c (Proc.devRef .tc main_arg1)) := by
    after_results <;> rfl
  exact h.trans (congrArg sl2 (W4_main_arg1 m ρ c))

/-- What region 2 leaves in its result array, still there at the end of the regions. -/
theorem W8_main_v8 (c : Dev nD) : W8 m ρ c (Proc.devRef .tc main_v8)
    = arr2 (sl2 (m ((c : Thread nD τ).loc main_arg0))) (sl2 (m ((c : Thread nD τ).loc main_arg1))) := by
  refine (W8_of_ne m ρ c main_v8 (by decide)).trans <| (W7_of m ρ c main_v8 (by decide)).trans <| (W6_arr m ρ c 2).trans <| (final2 (V5 m ρ) c).trans ?_
  rw [opA2_eq, opB2_eq]

/-! ### Region 3 -/

/-- Region 3's operands are the region's rows of the two arguments: the host slices them out just before the region, from
    arguments nothing has written. -/
theorem opA3_eq (c : Dev nD) : opA3 (V7 m ρ) c = sl3 (m ((c : Thread nD τ).loc main_arg0)) := by
  have h : StableHlo.after hostOps3 (W6 m ρ c) (Proc.devRef .tc main_v9) = sl3 (W6 m ρ c (Proc.devRef .tc main_arg0)) := by
    after_results <;> rfl
  exact h.trans (congrArg sl3 (W6_main_arg0 m ρ c))
theorem opB3_eq (c : Dev nD) : opB3 (V7 m ρ) c = sl3 (m ((c : Thread nD τ).loc main_arg1)) := by
  have h : StableHlo.after hostOps3 (W6 m ρ c) (Proc.devRef .tc main_v10) = sl3 (W6 m ρ c (Proc.devRef .tc main_arg1)) := by
    after_results <;> rfl
  exact h.trans (congrArg sl3 (W6_main_arg1 m ρ c))

/-- What region 3 leaves in its result array, still there at the end of the regions. -/
theorem W8_main_v11 (c : Dev nD) : W8 m ρ c (Proc.devRef .tc main_v11)
    = arr3 (sl3 (m ((c : Thread nD τ).loc main_arg0))) (sl3 (m ((c : Thread nD τ).loc main_arg1))) := by
  refine (W8_arr m ρ c 2).trans <| (final3 (V7 m ρ) c).trans ?_
  rw [opA3_eq, opB3_eq]

/-! ## The result -/

/-- The result array at the end of the run is `spec` of the two arguments as launched. -/
theorem W9_main_v12 (c : Dev nD) : W9 m ρ c (Proc.devRef .tc main_v12)
    = spec (m ((c : Thread nD τ).loc main_arg0)) (m ((c : Thread nD τ).loc main_arg1)) := by
  have h : StableHlo.after hostOps4 (W8 m ρ c) (Proc.devRef .tc main_v12)
      = concatenate S2048x32x64x64 1 [⟨S2048x8x64x64, W8 m ρ c (Proc.devRef .tc main_v2)⟩, ⟨S2048x8x64x64, W8 m ρ c (Proc.devRef .tc main_v5)⟩,
          ⟨S2048x8x64x64, W8 m ρ c (Proc.devRef .tc main_v8)⟩, ⟨S2048x8x64x64, W8 m ρ c (Proc.devRef .tc main_v11)⟩]
          concatenates_S2048x8x64x64_S2048x8x64x64_S2048x8x64x64_S2048x8x64x64_S2048x32x64x64_d1 := by
    after_results <;> rfl
  refine h.trans ?_
  rw [W8_main_v2, W8_main_v5, W8_main_v8, W8_main_v11]
  rfl

/-- THE RUN, VALUED: every weakly fair execution of the program at the extended reals terminates, nothing faults, the
    result array ends at `spec` of the arguments and the arguments end as launched. -/
theorem run_value : θ_run defs (onTc (τ := τ) (main (F := Ideal))) ⟨m, fun _ => 0, ρ⟩ (fun r => ∀ c : Dev nD,
      r.2.mem ((c.tc : Thread nD τ).loc main_v12) = spec (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v12 (by decide))).trans (W9_main_v12 m ρ c),
      (h c _ (mem_uc main_arg0 (by decide))).trans (W9_main_arg0 m ρ c), (h c _ (mem_uc main_arg1 (by decide))).trans (W9_main_arg1 m ρ c)⟩) (run_all m ρ)

end Cert.KernelIdeal.Frame

end
-- ==== Proof.Ref.lean ====
/-
  The reference computes the same function of its arguments. It handles each of the four groups of sub-rows by slicing
  the group out of both arguments, splitting the sub-row axis `[8 d]` into `[8, d]`, contracting the `d` axis (an einsum
  over the multiplicity and the two channel axes) and multiplying by the group's scalar, then concatenates the four
  results: group by group that is `arrK` of the slices, so the whole is `spec`.
-/
import proofs.«102490_j7232724927058_2_alg».proof.Proof.Gen.ReferenceIdeal.Read
import proofs.«102490_j7232724927058_2_alg».proof.Proof.Ideal.Result

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen
open Cert.KernelIdeal.Frame (arr0 arr1 arr2 arr3 sl0 sl1 sl2 sl3 spec)

/-- Group 0 of the reference (sub-rows per multiplicity index: 1): slicing the group's rows out of each argument, splitting the
    sub-row axis into `[8, 1]`, contracting the `1` axis and multiplying by the scalar is `arr0` of the two slices: at
    `(n, i, u, v)` the contraction is `Σ_{k < 1}` of the products of the reshaped slices at `(n, i, k, u)` and `(n, i, k, v)`, and
    the reshaped slice at `(n, i, k, ·)` is the slice at sub-row `1 i + k`. -/
theorem group0 (x0 x1 : (⟨S2048x128x64, .f32⟩ : BufTy).Contents (Elt Ideal)) :
    Read.val_main_v6 (F := Ideal) x0 x1 = arr0 (sl0 x0) (sl0 x1) := by
  funext i
  rw [Read.val_main_v6_apply, Read.val_main_v4_apply, Read.val_main_v5_apply, Read.val_main_cst_apply]
  show (∑ k : Fin 1, Read.val_main_v1 (F := Ideal) x0 (Read.lidx_main_v4 i k) * Read.val_main_v3 (F := Ideal) x1 (Read.ridx_main_v4 i k))
      * Ideal.ofBits .f32 0x3F800000#32 = arr0 (sl0 x0) (sl0 x1) i
  unfold arr0
  refine congrArg (· * Ideal.ofBits .f32 0x3F800000#32) (Finset.sum_congr rfl fun k _ => ?_)
  rw [Read.val_main_v1_apply, Read.val_main_v3_apply]
  have h0 : (i 0).val < 2048 := (i 0).isLt
  have h1 : (i 1).val < 8 := (i 1).isLt
  have h2 : (i 2).val < 64 := (i 2).isLt
  have h3 : (i 3).val < 64 := (i 3).isLt
  have hk : k.val < 1 := k.isLt
  have hl : Read.idx_main_v1 (Read.lidx_main_v4 i k)
      = ix3 (i 0) (⟨1 * (i 1).val + k.val, by omega⟩ : Fin 8) (i 2) :=
    funext fun a => Fin.ext (by
      match a with
      | ⟨0, _⟩ => show ((((i 0).val * 8 + (i 1).val) * 1 + k.val) * 64 + (i 2).val) / 512 = (i 0).val; omega
      | ⟨1, _⟩ => show ((((i 0).val * 8 + (i 1).val) * 1 + k.val) * 64 + (i 2).val) / 64 % 8 = 1 * (i 1).val + k.val; omega
      | ⟨2, _⟩ => show ((((i 0).val * 8 + (i 1).val) * 1 + k.val) * 64 + (i 2).val) % 64 = (i 2).val; omega)
  have hr : Read.idx_main_v3 (Read.ridx_main_v4 i k)
      = ix3 (i 0) (⟨1 * (i 1).val + k.val, by omega⟩ : Fin 8) (i 3) :=
    funext fun a => Fin.ext (by
      match a with
      | ⟨0, _⟩ => show ((((i 0).val * 8 + (i 1).val) * 1 + k.val) * 64 + (i 3).val) / 512 = (i 0).val; omega
      | ⟨1, _⟩ => show ((((i 0).val * 8 + (i 1).val) * 1 + k.val) * 64 + (i 3).val) / 64 % 8 = 1 * (i 1).val + k.val; omega
      | ⟨2, _⟩ => show ((((i 0).val * 8 + (i 1).val) * 1 + k.val) * 64 + (i 3).val) % 64 = (i 3).val; omega)
  rw [hl, hr]
  rfl

/-- Group 1 of the reference (sub-rows per multiplicity index: 3): slicing the group's rows out of each argument, splitting the
    sub-row axis into `[8, 3]`, contracting the `3` axis and multiplying by the scalar is `arr1` of the two slices: at
    `(n, i, u, v)` the contraction is `Σ_{k < 3}` of the products of the reshaped slices at `(n, i, k, u)` and `(n, i, k, v)`, and
    the reshaped slice at `(n, i, k, ·)` is the slice at sub-row `3 i + k`. -/
theorem group1 (x0 x1 : (⟨S2048x128x64, .f32⟩ : BufTy).Contents (Elt Ideal)) :
    Read.val_main_v13 (F := Ideal) x0 x1 = arr1 (sl1 x0) (sl1 x1) := by
  funext i
  rw [Read.val_main_v13_apply, Read.val_main_v11_apply, Read.val_main_v12_apply, Read.val_main_cst_0_apply]
  show (∑ k : Fin 3, Read.val_main_v8 (F := Ideal) x0 (Read.lidx_main_v11 i k) * Read.val_main_v10 (F := Ideal) x1 (Read.ridx_main_v11 i k))
      * Ideal.ofBits .f32 0x3F13CD3A#32 = arr1 (sl1 x0) (sl1 x1) i
  unfold arr1
  refine congrArg (· * Ideal.ofBits .f32 0x3F13CD3A#32) (Finset.sum_congr rfl fun k _ => ?_)
  rw [Read.val_main_v8_apply, Read.val_main_v10_apply]
  have h0 : (i 0).val < 2048 := (i 0).isLt
  have h1 : (i 1).val < 8 := (i 1).isLt
  have h2 : (i 2).val < 64 := (i 2).isLt
  have h3 : (i 3).val < 64 := (i 3).isLt
  have hk : k.val < 3 := k.isLt
  have hl : Read.idx_main_v8 (Read.lidx_main_v11 i k)
      = ix3 (i 0) (⟨3 * (i 1).val + k.val, by omega⟩ : Fin 24) (i 2) :=
    funext fun a => Fin.ext (by
      match a with
      | ⟨0, _⟩ => show ((((i 0).val * 8 + (i 1).val) * 3 + k.val) * 64 + (i 2).val) / 1536 = (i 0).val; omega
      | ⟨1, _⟩ => show ((((i 0).val * 8 + (i 1).val) * 3 + k.val) * 64 + (i 2).val) / 64 % 24 = 3 * (i 1).val + k.val; omega
      | ⟨2, _⟩ => show ((((i 0).val * 8 + (i 1).val) * 3 + k.val) * 64 + (i 2).val) % 64 = (i 2).val; omega)
  have hr : Read.idx_main_v10 (Read.ridx_main_v11 i k)
      = ix3 (i 0) (⟨3 * (i 1).val + k.val, by omega⟩ : Fin 24) (i 3) :=
    funext fun a => Fin.ext (by
      match a with
      | ⟨0, _⟩ => show ((((i 0).val * 8 + (i 1).val) * 3 + k.val) * 64 + (i 3).val) / 1536 = (i 0).val; omega
      | ⟨1, _⟩ => show ((((i 0).val * 8 + (i 1).val) * 3 + k.val) * 64 + (i 3).val) / 64 % 24 = 3 * (i 1).val + k.val; omega
      | ⟨2, _⟩ => show ((((i 0).val * 8 + (i 1).val) * 3 + k.val) * 64 + (i 3).val) % 64 = (i 3).val; omega)
  rw [hl, hr]
  rfl

/-- Group 2 of the reference (sub-rows per multiplicity index: 5): slicing the group's rows out of each argument, splitting the
    sub-row axis into `[8, 5]`, contracting the `5` axis and multiplying by the scalar is `arr2` of the two slices: at
    `(n, i, u, v)` the contraction is `Σ_{k < 5}` of the products of the reshaped slices at `(n, i, k, u)` and `(n, i, k, v)`, and
    the reshaped slice at `(n, i, k, ·)` is the slice at sub-row `5 i + k`. -/
theorem group2 (x0 x1 : (⟨S2048x128x64, .f32⟩ : BufTy).Contents (Elt Ideal)) :
    Read.val_main_v20 (F := Ideal) x0 x1 = arr2 (sl2 x0) (sl2 x1) := by
  funext i
  rw [Read.val_main_v20_apply, Read.val_main_v18_apply, Read.val_main_v19_apply, Read.val_main_cst_1_apply]
  show (∑ k : Fin 5, Read.val_main_v15 (F := Ideal) x0 (Read.lidx_main_v18 i k) * Read.val_main_v17 (F := Ideal) x1 (Read.ridx_main_v18 i k))
      * Ideal.ofBits .f32 0x3EE4F92E#32 = arr2 (sl2 x0) (sl2 x1) i
  unfold arr2
  refine congrArg (· * Ideal.ofBits .f32 0x3EE4F92E#32) (Finset.sum_congr rfl fun k _ => ?_)
  rw [Read.val_main_v15_apply, Read.val_main_v17_apply]
  have h0 : (i 0).val < 2048 := (i 0).isLt
  have h1 : (i 1).val < 8 := (i 1).isLt
  have h2 : (i 2).val < 64 := (i 2).isLt
  have h3 : (i 3).val < 64 := (i 3).isLt
  have hk : k.val < 5 := k.isLt
  have hl : Read.idx_main_v15 (Read.lidx_main_v18 i k)
      = ix3 (i 0) (⟨5 * (i 1).val + k.val, by omega⟩ : Fin 40) (i 2) :=
    funext fun a => Fin.ext (by
      match a with
      | ⟨0, _⟩ => show ((((i 0).val * 8 + (i 1).val) * 5 + k.val) * 64 + (i 2).val) / 2560 = (i 0).val; omega
      | ⟨1, _⟩ => show ((((i 0).val * 8 + (i 1).val) * 5 + k.val) * 64 + (i 2).val) / 64 % 40 = 5 * (i 1).val + k.val; omega
      | ⟨2, _⟩ => show ((((i 0).val * 8 + (i 1).val) * 5 + k.val) * 64 + (i 2).val) % 64 = (i 2).val; omega)
  have hr : Read.idx_main_v17 (Read.ridx_main_v18 i k)
      = ix3 (i 0) (⟨5 * (i 1).val + k.val, by omega⟩ : Fin 40) (i 3) :=
    funext fun a => Fin.ext (by
      match a with
      | ⟨0, _⟩ => show ((((i 0).val * 8 + (i 1).val) * 5 + k.val) * 64 + (i 3).val) / 2560 = (i 0).val; omega
      | ⟨1, _⟩ => show ((((i 0).val * 8 + (i 1).val) * 5 + k.val) * 64 + (i 3).val) / 64 % 40 = 5 * (i 1).val + k.val; omega
      | ⟨2, _⟩ => show ((((i 0).val * 8 + (i 1).val) * 5 + k.val) * 64 + (i 3).val) % 64 = (i 3).val; omega)
  rw [hl, hr]
  rfl

/-- Group 3 of the reference (sub-rows per multiplicity index: 7): slicing the group's rows out of each argument, splitting the
    sub-row axis into `[8, 7]`, contracting the `7` axis and multiplying by the scalar is `arr3` of the two slices: at
    `(n, i, u, v)` the contraction is `Σ_{k < 7}` of the products of the reshaped slices at `(n, i, k, u)` and `(n, i, k, v)`, and
    the reshaped slice at `(n, i, k, ·)` is the slice at sub-row `7 i + k`. -/
theorem group3 (x0 x1 : (⟨S2048x128x64, .f32⟩ : BufTy).Contents (Elt Ideal)) :
    Read.val_main_v27 (F := Ideal) x0 x1 = arr3 (sl3 x0) (sl3 x1) := by
  funext i
  rw [Read.val_main_v27_apply, Read.val_main_v25_apply, Read.val_main_v26_apply, Read.val_main_cst_2_apply]
  show (∑ k : Fin 7, Read.val_main_v22 (F := Ideal) x0 (Read.lidx_main_v25 i k) * Read.val_main_v24 (F := Ideal) x1 (Read.ridx_main_v25 i k))
      * Ideal.ofBits .f32 0x3EC1848F#32 = arr3 (sl3 x0) (sl3 x1) i
  unfold arr3
  refine congrArg (· * Ideal.ofBits .f32 0x3EC1848F#32) (Finset.sum_congr rfl fun k _ => ?_)
  rw [Read.val_main_v22_apply, Read.val_main_v24_apply]
  have h0 : (i 0).val < 2048 := (i 0).isLt
  have h1 : (i 1).val < 8 := (i 1).isLt
  have h2 : (i 2).val < 64 := (i 2).isLt
  have h3 : (i 3).val < 64 := (i 3).isLt
  have hk : k.val < 7 := k.isLt
  have hl : Read.idx_main_v22 (Read.lidx_main_v25 i k)
      = ix3 (i 0) (⟨7 * (i 1).val + k.val, by omega⟩ : Fin 56) (i 2) :=
    funext fun a => Fin.ext (by
      match a with
      | ⟨0, _⟩ => show ((((i 0).val * 8 + (i 1).val) * 7 + k.val) * 64 + (i 2).val) / 3584 = (i 0).val; omega
      | ⟨1, _⟩ => show ((((i 0).val * 8 + (i 1).val) * 7 + k.val) * 64 + (i 2).val) / 64 % 56 = 7 * (i 1).val + k.val; omega
      | ⟨2, _⟩ => show ((((i 0).val * 8 + (i 1).val) * 7 + k.val) * 64 + (i 2).val) % 64 = (i 2).val; omega)
  have hr : Read.idx_main_v24 (Read.ridx_main_v25 i k)
      = ix3 (i 0) (⟨7 * (i 1).val + k.val, by omega⟩ : Fin 56) (i 3) :=
    funext fun a => Fin.ext (by
      match a with
      | ⟨0, _⟩ => show ((((i 0).val * 8 + (i 1).val) * 7 + k.val) * 64 + (i 3).val) / 3584 = (i 0).val; omega
      | ⟨1, _⟩ => show ((((i 0).val * 8 + (i 1).val) * 7 + k.val) * 64 + (i 3).val) / 64 % 56 = 7 * (i 1).val + k.val; omega
      | ⟨2, _⟩ => show ((((i 0).val * 8 + (i 1).val) * 7 + k.val) * 64 + (i 3).val) % 64 = (i 3).val; omega)
  rw [hl, hr]
  rfl

/-- THE REFERENCE IS THE SPECIFICATION: its result, as a function of its two arguments, is `spec`. -/
theorem ref_eq (x0 x1 : (⟨S2048x128x64, .f32⟩ : BufTy).Contents (Elt Ideal)) :
    Read.val_main_v28 (F := Ideal) x0 x1 = spec x0 x1 := by
  unfold Read.val_main_v28
  rw [group0, group1, group2, group3]
  rfl

end Cert.ReferenceIdeal.RefValue

end
-- ==== Proof.lean ====
/-
  The kernel and its reference compute one function over the extended reals.

  The inputs are two arrays `[2048, 128, 64]`; the 128 sub-rows fall into four groups of `8 d` sub-rows, `d = 1, 3, 5, 7`
  (eight copies of an irreducible representation of dimension `d`). For each group, each row `n`, each copy `i < 8` and each
  pair of channels `(u, v)` both programs form `(Σ_{m < d} x[n, off + d i + m, u] · y[n, off + d i + m, v]) · s_d`, where `s_d` is
  one 32-bit float word, the same word in both programs (`1`, and the roundings of `1/√3`, `1/√5`, `1/√7`), and lay the four
  groups side by side along the copy axis: a result `[2048, 32, 64, 64]`.
  The kernel does it in four pipelined regions, one per group, on blocks of 64 rows: for each copy it adds the `d` outer
  products up from zero, in order, scales the sum and stores it (Ideal/Region*, Ideal/Value*). The reference reshapes the
  group to `[2048, 8, d, 64]` and contracts the `d` axis in one einsum (Ref). A sum from zero in order is the sum, whatever
  the summands — no distributivity, no cancellation — so the two agree at every extended real and the precondition
  (finite inputs) is never opened.

  Frames: every program runs to the end without a fault and leaves its two arguments as launched. For the kernel, at the
  word level and at the extended reals alike, this is the launch theorem for a list of host stretches and pipelined
  regions, fed one body run per region (Bits/Run, Ideal/Run); for the reference it is its run with the result dropped.
  Nothing was rewritten when the kernel was idealized, so the remaining conjunct asks nothing.
-/
import proofs.«102490_j7232724927058_2_alg».proof.Defs
import proofs.«102490_j7232724927058_2_alg».proof.Proof.Gen.Kernel
import proofs.«102490_j7232724927058_2_alg».proof.Proof.Gen.KernelIdeal
import proofs.«102490_j7232724927058_2_alg».proof.Proof.Gen.ReferenceIdeal
import proofs.«102490_j7232724927058_2_alg».proof.Proof.Gen.ReferenceIdeal.Run
import proofs.«102490_j7232724927058_2_alg».proof.Proof.Gen.ReferenceIdeal.Read
import proofs.«102490_j7232724927058_2_alg».proof.Proof.Gen.Pre_finite_inputs
import proofs.«102490_j7232724927058_2_alg».proof.Proof.Bits.Run
import proofs.«102490_j7232724927058_2_alg».proof.Proof.Ideal.Result
import proofs.«102490_j7232724927058_2_alg».proof.Proof.Ref

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Frame.frame m ρ

/-- So does the kernel read over the extended reals. -/
theorem frame_kernelIdeal : Cert.frame_KernelIdeal := fun m ρ _ => Cert.KernelIdeal.Frame.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the result array at `spec` of the arguments: the
    kernel by its valued run, the reference by its run and `ref_eq`. -/
theorem algebraic : Cert.algebraic_KernelIdeal_ReferenceIdeal := by
  intro m ρ m' ρ' _ hagree
  refine ⟨fun c => Cert.KernelIdeal.Frame.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
